-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x1 .f32) (main_arg14 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg13
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S128x128 .f32) (main_arg9 : FVec F S128x128 .f32) (main_arg10 : FVec F S128 .f32) (main_arg11 : FVec F S128x64 .f32) (main_arg12 : FVec F S64 .f32) (main_arg13 : FVec F S64x1 .f32) (main_arg14 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x64 .f32) (main_arg12 : FVec F S64 .f32) (main_arg13 : FVec F S64x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S40000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x64 .f32) (main_arg12 : FVec F S64 .f32) (main_arg13 : FVec F S64x1 .f32) (main_arg14 : FVec F S1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x128 : Shape := ⟨2, ![5000, 128]⟩
abbrev S1x64 : Shape := ⟨2, ![1, 64]⟩
abbrev S40000x64 : Shape := ⟨2, ![40000, 64]⟩
abbrev S5000x64 : Shape := ⟨2, ![5000, 64]⟩
abbrev S1x1 : Shape := ⟨2, ![1, 1]⟩
abbrev S40000x1 : Shape := ⟨2, ![40000, 1]⟩
abbrev S5000x1 : Shape := ⟨2, ![5000, 1]⟩

abbrev nBuf : Space → Nat
  | .hbm => 68
  | .vmem => 39
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S40000x128, .f32⟩
  | .hbm, ⟨30, _⟩ => ⟨S640000x1, .i32⟩
  | .hbm, ⟨31, _⟩ => ⟨S40000x128, .f32⟩
  | .hbm, ⟨32, _⟩ => ⟨S1x128, .f32⟩
  | .hbm, ⟨33, _⟩ => ⟨S40000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S40000x128, .f32⟩
  | .hbm, ⟨45, _⟩ => ⟨S640000x1, .i32⟩
  | .hbm, ⟨46, _⟩ => ⟨S40000x128, .f32⟩
  | .hbm, ⟨47, _⟩ => ⟨S1x128, .f32⟩
  | .hbm, ⟨48, _⟩ => ⟨S40000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S40000x128, .f32⟩
  | .hbm, ⟨60, _⟩ => ⟨S640000x1, .i32⟩
  | .hbm, ⟨61, _⟩ => ⟨S40000x128, .f32⟩
  | .hbm, ⟨62, _⟩ => ⟨S1x128, .f32⟩
  | .hbm, ⟨63, _⟩ => ⟨S40000x128, .f32⟩
  | .hbm, ⟨64, _⟩ => ⟨S1x64, .f32⟩
  | .hbm, ⟨65, _⟩ => ⟨S40000x64, .f32⟩
  | .hbm, ⟨66, _⟩ => ⟨S1x1, .f32⟩
  | .hbm, ⟨67, _⟩ => ⟨S40000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x1, .f32⟩
  | .local _ .vmem, ⟨36, _⟩ => ⟨S1x1, .f32⟩
  | .local _ .vmem, ⟨37, _⟩ => ⟨S5000x1, .f32⟩
  | .local _ .vmem, ⟨38, _⟩ => ⟨S5000x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S1_S1x1 : S1.ShapeCasts S1x1
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S40000x128.size a
  hwx1_5 : ∀ i : grid1.Coords, EltTy.bits .f32 = 32 ∨ (Rect.block (s := S40000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S40000x128.size a
  hwx2_1 : ∀ i : grid2.Coords, EltTy.bits .f32 = 32 ∨ (Rect.block (s := S40000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S40000x128.size a
  hwx2_5 : ∀ i : grid2.Coords, EltTy.bits .f32 = 32 ∨ (Rect.block (s := S40000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S40000x64.size a
  hwx3_3 : ∀ i : grid3.Coords, EltTy.bits .f32 = 32 ∨ (Rect.block (s := S40000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S40000x64.size a
  hwx4_0 : ∀ i : grid4.Coords, EltTy.bits .f32 = 32 ∨ (Rect.block (s := S40000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S40000x1.size a
  hwx4_3 : ∀ i : grid4.Coords, EltTy.bits .f32 = 32 ∨ (Rect.block (s := S40000x1) S5000x1.size (cc4_transform_3 i) (hinb4_3 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S40000x64 : Shape := ⟨2, ![40000, 64]⟩
abbrev S1x64 : Shape := ⟨2, ![1, 64]⟩
abbrev S40000x1 : Shape := ⟨2, ![40000, 1]⟩
abbrev S1x1 : Shape := ⟨2, ![1, 1]⟩

abbrev nBuf : Space → Nat
  | .hbm => 93
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S40000x128, .f32⟩
  | .hbm, ⟨30, _⟩ => ⟨S640000x1, .i32⟩
  | .hbm, ⟨31, _⟩ => ⟨S40000x128, .f32⟩
  | .hbm, ⟨32, _⟩ => ⟨S40000x128, .f32⟩
  | .hbm, ⟨33, _⟩ => ⟨S1x128, .f32⟩
  | .hbm, ⟨34, _⟩ => ⟨S40000x128, .f32⟩
  | .hbm, ⟨35, _⟩ => ⟨S40000x128, .f32⟩
  | .hbm, ⟨36, _⟩ => ⟨S40000x128, .f32⟩
  | .hbm, ⟨37, _⟩ => ⟨S40000x128, .f32⟩
  | .hbm, ⟨38, _⟩ => ⟨S_, .f32⟩
  | .hbm, ⟨39, _⟩ => ⟨S40000x128, .f32⟩
  | .hbm, ⟨40, _⟩ => ⟨S40000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S40000x128, .f32⟩
  | .hbm, ⟨52, _⟩ => ⟨S640000x1, .i32⟩
  | .hbm, ⟨53, _⟩ => ⟨S40000x128, .f32⟩
  | .hbm, ⟨54, _⟩ => ⟨S40000x128, .f32⟩
  | .hbm, ⟨55, _⟩ => ⟨S1x128, .f32⟩
  | .hbm, ⟨56, _⟩ => ⟨S40000x128, .f32⟩
  | .hbm, ⟨57, _⟩ => ⟨S40000x128, .f32⟩
  | .hbm, ⟨58, _⟩ => ⟨S40000x128, .f32⟩
  | .hbm, ⟨59, _⟩ => ⟨S40000x128, .f32⟩
  | .hbm, ⟨60, _⟩ => ⟨S_, .f32⟩
  | .hbm, ⟨61, _⟩ => ⟨S40000x128, .f32⟩
  | .hbm, ⟨62, _⟩ => ⟨S40000x128, .f32⟩
  | .hbm, ⟨63, _⟩ => ⟨S_, .i32⟩
  | .hbm, ⟨64, _⟩ => ⟨S640000, .i32⟩
  | .hbm, ⟨65, _⟩ => ⟨S640000, .i1⟩
  | .hbm, ⟨66, _⟩ => ⟨S_, .i32⟩
  | .hbm, ⟨67, _⟩ => ⟨S640000, .i32⟩
  | .hbm, ⟨68, _⟩ => ⟨S640000, .i32⟩
  | .hbm, ⟨69, _⟩ => ⟨S640000, .i32⟩
  | .hbm, ⟨70, _⟩ => ⟨S640000x1, .i32⟩
  | .hbm, ⟨71, _⟩ => ⟨S640000x128, .f32⟩
  | .hbm, ⟨72, _⟩ => ⟨S_, .f32⟩
  | .hbm, ⟨73, _⟩ => ⟨S40000x128, .f32⟩
  | .hbm, ⟨74, _⟩ => ⟨S640000x1, .i32⟩
  | .hbm, ⟨75, _⟩ => ⟨S40000x128, .f32⟩
  | .hbm, ⟨76, _⟩ => ⟨S40000x128, .f32⟩
  | .hbm, ⟨77, _⟩ => ⟨S1x128, .f32⟩
  | .hbm, ⟨78, _⟩ => ⟨S40000x128, .f32⟩
  | .hbm, ⟨79, _⟩ => ⟨S40000x128, .f32⟩
  | .hbm, ⟨80, _⟩ => ⟨S40000x128, .f32⟩
  | .hbm, ⟨81, _⟩ => ⟨S40000x128, .f32⟩
  | .hbm, ⟨82, _⟩ => ⟨S40000x64, .f32⟩
  | .hbm, ⟨83, _⟩ => ⟨S1x64, .f32⟩
  | .hbm, ⟨84, _⟩ => ⟨S40000x64, .f32⟩
  | .hbm, ⟨85, _⟩ => ⟨S40000x64, .f32⟩
  | .hbm, ⟨86, _⟩ => ⟨S_, .f32⟩
  | .hbm, ⟨87, _⟩ => ⟨S40000x64, .f32⟩
  | .hbm, ⟨88, _⟩ => ⟨S40000x64, .f32⟩
  | .hbm, ⟨89, _⟩ => ⟨S40000x1, .f32⟩
  | .hbm, ⟨90, _⟩ => ⟨S1x1, .f32⟩
  | .hbm, ⟨91, _⟩ => ⟨S40000x1, .f32⟩
  | .hbm, ⟨92, _⟩ => ⟨S40000x1, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_c_1 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_c_4 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call2_cst : Ref sig .tc := ⟨.hbm, 86, rfl⟩
abbrev main_call2_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S_S40000x64 : S_.BroadcastsInDim S40000x64 (![] : Fin 0 → Fin S40000x64.rank)
  bcast_S1_S1x1_1 : S1.BroadcastsInDim S1x1 (![1] : Fin 1 → Fin S1x1.rank)
  bcast_S1x1_S40000x1_0_1 : S1x1.BroadcastsInDim S40000x1 (![0, 1] : Fin 2 → Fin S40000x1.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []
  dot_S40000x64_S64x1_S40000x1_1_0_0_1_n_n_wf : DotDims.WF S40000x64 S64x1 S40000x1 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def dot_S40000x64_S64x1_S40000x1_1_0_0_1_n_n : DotDims S40000x64 S64x1 S40000x1 where
  lhsContracting := [1]
  rhsContracting := [0]
  lhsNonContracting := [0]
  rhsNonContracting := [1]
  lhsBatch := []
  rhsBatch := []
  wf := dot_S40000x64_S64x1_S40000x1_1_0_0_1_n_n_wf

class Facts : Prop extends Facts₀ where

variable [Facts]
-- ==== Proof.KernelRun.lean ====
/-
  The idealized kernel's run with its result named.

  The run passes through ten boundaries: a stretch of host operations, then a kernel region, five times over. The
  buffer contents at each boundary are a fold from the launch memory, and after the last region every unscoped
  buffer holds the last boundary's contents. Reading the result buffer there, beside the argument buffers, gives:
  every weakly fair execution terminates with the result at the last boundary's contents of its buffer, and the
  arguments as launched.
-/
import proofs.«129533_j68959994904998_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result buffer at the
    last boundary's contents and every argument buffer as launched. -/
theorem run_result : θ_run defs (onTc (τ := τ) (main (F := F))) ⟨m, fun _ => 0, ρ⟩ (fun r => ∀ c : Dev nD,
      r.2.mem ((c.tc : Thread nD τ).loc main_v43) = W10 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v43 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.Gen

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.Spec.lean ====
/-
  The layers of the graph network as functions of whole arrays, entry by entry, over the extended reals.

  A dense product of an [n, K] array with a [K, w] array has at entry (p, q) the sum over k < K of x(p, k) * W(k, q).
  A graph-convolution layer adds two such products — one of the neighbour sums, one of the node features — and a bias
  row; a fully connected layer adds one product and a bias row. A rectified layer takes the maximum with zero.
  The two programs add the three summands of a convolution layer in different orders: addition on the extended reals
  is commutative and associative, so the order does not matter (no finiteness is needed).
-/
import Idealize.ShloMosaic.PureOps.Ideal
import Idealize.ShloMosaic.Lib.ValueIdx

noncomputable section

namespace Cert.GraphNet

open Idealize.ShloMosaic Idealize.ShloMosaic.ValueIdx

/-- Entry (p, q) of the product of an [n, K] array with a [K, w] array. -/
def denseAt {n K w : ℕ} (x : (⟨2, ![n, K]⟩ : Shape).Idx → EReal) (W : (⟨2, ![K, w]⟩ : Shape).Idx → EReal)
    (p : Fin n) (q : Fin w) : EReal :=
  ∑ k : Fin K, x (ix2 p k) * W (ix2 k q)

/-- Entry (p, q) of a graph-convolution layer before rectification: neighbour sums times their weights, plus node
    features times theirs, plus the bias of column q. -/
def convAt {n K w : ℕ} (agg h : (⟨2, ![n, K]⟩ : Shape).Idx → EReal) (wrel wroot : (⟨2, ![K, w]⟩ : Shape).Idx → EReal)
    (b : (⟨2, ![1, w]⟩ : Shape).Idx → EReal) (p : Fin n) (q : Fin w) : EReal :=
  (denseAt agg wrel p q + denseAt h wroot p q) + b (ix2 (0 : Fin 1) q)

/-- Entry (p, q) of a fully connected layer before rectification. -/
def fcAt {n K w : ℕ} (h : (⟨2, ![n, K]⟩ : Shape).Idx → EReal) (W : (⟨2, ![K, w]⟩ : Shape).Idx → EReal)
    (b : (⟨2, ![1, w]⟩ : Shape).Idx → EReal) (p : Fin n) (q : Fin w) : EReal :=
  denseAt h W p q + b (ix2 (0 : Fin 1) q)

/-- The zero the rectified layers compare with: the word of +0.0, kept as a word. -/
abbrev zero32 : EReal := Ideal.ofBits .f32 0x00000000#32

/-- A graph-convolution layer as a whole array; `relu` says whether it is rectified. -/
def conv {n K w : ℕ} (relu : Bool) (agg h : (⟨2, ![n, K]⟩ : Shape).Idx → EReal)
    (wrel wroot : (⟨2, ![K, w]⟩ : Shape).Idx → EReal) (b : (⟨2, ![1, w]⟩ : Shape).Idx → EReal) :
    (⟨2, ![n, w]⟩ : Shape).Idx → EReal :=
  fun i => if relu then max (convAt agg h wrel wroot b (i 0) (i 1)) zero32 else convAt agg h wrel wroot b (i 0) (i 1)

/-- A fully connected layer as a whole array; `relu` says whether it is rectified. -/
def fc {n K w : ℕ} (relu : Bool) (h : (⟨2, ![n, K]⟩ : Shape).Idx → EReal) (W : (⟨2, ![K, w]⟩ : Shape).Idx → EReal)
    (b : (⟨2, ![1, w]⟩ : Shape).Idx → EReal) : (⟨2, ![n, w]⟩ : Shape).Idx → EReal :=
  fun i => if relu then max (fcAt h W b (i 0) (i 1)) zero32 else fcAt h W b (i 0) (i 1)

/-- A bias vector laid out as an array of one row. -/
def rowOf {w : ℕ} (b : (⟨1, ![w]⟩ : Shape).Idx → EReal) : (⟨2, ![1, w]⟩ : Shape).Idx → EReal :=
  fun i => b (ix1 (i 1 : Fin w))

/-- The whole network on 40000 nodes: three graph-convolution layers of width 128 (the first two rectified), each fed
    the neighbour sums `agg` of its input beside the input itself, then a rectified fully connected layer to width 64
    and a plain one to width 1. The neighbour-sum operator is a parameter: both programs compute it by the same host
    gather and scatter-add, which is never opened. -/
def net (agg : ((⟨2, ![40000, 128]⟩ : Shape).Idx → EReal) → (⟨2, ![40000, 128]⟩ : Shape).Idx → EReal)
    (x : (⟨2, ![40000, 128]⟩ : Shape).Idx → EReal)
    (wrel0 wroot0 : (⟨2, ![128, 128]⟩ : Shape).Idx → EReal) (b0 : (⟨1, ![128]⟩ : Shape).Idx → EReal)
    (wrel1 wroot1 : (⟨2, ![128, 128]⟩ : Shape).Idx → EReal) (b1 : (⟨1, ![128]⟩ : Shape).Idx → EReal)
    (wrel2 wroot2 : (⟨2, ![128, 128]⟩ : Shape).Idx → EReal) (b2 : (⟨1, ![128]⟩ : Shape).Idx → EReal)
    (wfc0 : (⟨2, ![128, 64]⟩ : Shape).Idx → EReal) (bfc0 : (⟨1, ![64]⟩ : Shape).Idx → EReal)
    (wfc1 : (⟨2, ![64, 1]⟩ : Shape).Idx → EReal) (bfc1 : (⟨1, ![1]⟩ : Shape).Idx → EReal) :
    (⟨2, ![40000, 1]⟩ : Shape).Idx → EReal :=
  fc false
    (fc true
      (conv false
        (agg (conv true (agg (conv true (agg x) x wrel0 wroot0 (rowOf b0))) (conv true (agg x) x wrel0 wroot0 (rowOf b0)) wrel1 wroot1 (rowOf b1)))
        (conv true (agg (conv true (agg x) x wrel0 wroot0 (rowOf b0))) (conv true (agg x) x wrel0 wroot0 (rowOf b0)) wrel1 wroot1 (rowOf b1))
        wrel2 wroot2 (rowOf b2))
      wfc0 (rowOf bfc0))
    wfc1 (rowOf bfc1)

/-- The bias may be added before or after the second product. -/
theorem convAt_comm {n K w : ℕ} (agg h : (⟨2, ![n, K]⟩ : Shape).Idx → EReal) (wrel wroot : (⟨2, ![K, w]⟩ : Shape).Idx → EReal)
    (b : (⟨2, ![1, w]⟩ : Shape).Idx → EReal) (p : Fin n) (q : Fin w) :
    (denseAt agg wrel p q + b (ix2 (0 : Fin 1) q)) + denseAt h wroot p q = convAt agg h wrel wroot b p q := by
  unfold convAt
  exact add_right_comm _ _ _

/-- A block of rows of a dense product is the product of that block of rows: entry (p, q) only reads row p. -/
theorem denseAt_congr {n n' K w : ℕ} (x : (⟨2, ![n, K]⟩ : Shape).Idx → EReal) (x' : (⟨2, ![n', K]⟩ : Shape).Idx → EReal)
    (W : (⟨2, ![K, w]⟩ : Shape).Idx → EReal) (p : Fin n) (p' : Fin n') (q : Fin w)
    (hx : ∀ k : Fin K, x (ix2 p k) = x' (ix2 p' k)) : denseAt x W p q = denseAt x' W p' q := by
  unfold denseAt
  exact Finset.sum_congr rfl fun k _ => by rw [hx k]

end Cert.GraphNet

end
-- ==== Proof.Payloads.lean ====
/-
  What each kernel body stores, read at one entry of its block.

  Every body loads a block of 5000 rows, multiplies it on the matrix unit by a resident weight matrix (two products
  for a graph-convolution layer, one for a fully connected layer), adds the bias row and, in the rectified layers,
  takes the maximum with zero. At the ideal values a narrowing to bf16 is the identity and a matrix-unit product into
  a zero accumulator is the plain sum over the contracted axis, so entry (p, q) of the stored block is the layer's
  formula on the loaded blocks.
-/
import proofs.«129533_j68959994904998_1_alg».proof.Proof.Gen.KernelIdeal.Skeleton
import proofs.«129533_j68959994904998_1_alg».proof.Proof.LibMatmulSum
import proofs.«129533_j68959994904998_1_alg».proof.Proof.Spec
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.GraphNet Cert.LibMatmulSum

/-- The [5000,128] x [128,128] block product contracts the left operand's columns with the right operand's rows. -/
theorem plain_128x128 : Plain (n := 5000) (K := 128) (w := 128) dot_S5000x128_S128x128_S5000x128_1_0_0_1_n_n where
  rank := rfl
  size := rfl
  l0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  l1 := fun i q => dot_S5000x128_S128x128_S5000x128_1_0_0_1_n_n.lhsIdx_val_of_single rfl i q
  r0 := fun i q => dot_S5000x128_S128x128_S5000x128_1_0_0_1_n_n.rhsIdx_val_of_single rfl i q
  r1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The [5000,128] x [128,64] block product contracts the left operand's columns with the right operand's rows. -/
theorem plain_128x64 : Plain (n := 5000) (K := 128) (w := 64) dot_S5000x128_S128x64_S5000x64_1_0_0_1_n_n where
  rank := rfl
  size := rfl
  l0 := fun i q => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  l1 := fun i q => dot_S5000x128_S128x64_S5000x64_1_0_0_1_n_n.lhsIdx_val_of_single rfl i q
  r0 := fun i q => dot_S5000x128_S128x64_S5000x64_1_0_0_1_n_n.rhsIdx_val_of_single rfl i q
  r1 := fun i q => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- The [5000,64] x [64,1] block product contracts the left operand's columns with the right operand's rows. -/
theorem plain_64x1 : Plain (n := 5000) (K := 64) (w := 1) dot_S5000x64_S64x1_S5000x1_1_0_0_1_n_n where
  rank := rfl
  size := rfl
  l0 := fun i q => by
    unfold DotDims.lhsIdx
    rw [dif_neg (show ¬(0 : Fin S5000x64.rank) ∈ dot_S5000x64_S64x1_S5000x1_1_0_0_1_n_n.lhsBatch by decide),
      dif_pos (show (0 : Fin S5000x64.rank) ∈ dot_S5000x64_S64x1_S5000x1_1_0_0_1_n_n.lhsNonContracting by decide)]
    rfl
  l1 := fun i q => dot_S5000x64_S64x1_S5000x1_1_0_0_1_n_n.lhsIdx_val_of_single rfl i q
  r0 := fun i q => dot_S5000x64_S64x1_S5000x1_1_0_0_1_n_n.rhsIdx_val_of_single rfl i q
  r1 := fun i q => by
    unfold DotDims.rhsIdx
    rw [dif_neg (show ¬(1 : Fin S64x1.rank) ∈ dot_S5000x64_S64x1_S5000x1_1_0_0_1_n_n.rhsBatch by decide),
      dif_pos (show (1 : Fin S64x1.rank) ∈ dot_S5000x64_S64x1_S5000x1_1_0_0_1_n_n.rhsNonContracting by decide)]
    rfl

/-- The matrix-unit product as the printed bodies spell it, into the zero accumulator, at entry (p, q): the sum over
    the contracted axis. -/
theorem mm_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    matmul d prec l r (constant ⟨2, ![n, w]⟩ .f32 0x00000000#32) (ix2 p q) = ∑ k : Fin K, l (ix2 p k) * r (ix2 k q) :=
  matmul_zero_at hd prec l r p q

/-- Entry (p, q) of the first convolution layer's stored block: rectified. -/
theorem pay0_at (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = max (convAt x0 x1 x2 x3 x4 p q) zero32 := by
  unfold k0_pay1
  simp only [maximumf_apply, addf_apply, broadcast_apply]
  rw [mm_at plain_128x128, mm_at plain_128x128, broadcastTo_1b_ab_apply]
  simp only [shapeCast_self]
  rfl

/-- Entry (p, q) of the second convolution layer's stored block: rectified. -/
theorem pay1_at (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q) = max (convAt x0 x1 x2 x3 x4 p q) zero32 := by
  unfold k1_pay1
  simp only [maximumf_apply, addf_apply, broadcast_apply]
  rw [mm_at plain_128x128, mm_at plain_128x128, broadcastTo_1b_ab_apply]
  simp only [shapeCast_self]
  rfl

/-- Entry (p, q) of the third convolution layer's stored block: not rectified. -/
theorem pay2_at (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q) = convAt x0 x1 x2 x3 x4 p q := by
  unfold k2_pay1
  simp only [addf_apply]
  rw [mm_at plain_128x128, mm_at plain_128x128, broadcastTo_1b_ab_apply]
  simp only [shapeCast_self]
  rfl

/-- Entry (p, q) of the first fully connected layer's stored block: rectified. -/
theorem pay3_at (x0 : Vec Ideal S5000x128 .f32) (x1 : Vec Ideal S128x64 .f32) (x2 : Vec Ideal S1x64 .f32)
    (p : Fin 5000) (q : Fin 64) :
    k3_pay1 (F := Ideal) x0 x1 x2 (ix2 p q) = max (fcAt x0 x1 x2 p q) zero32 := by
  unfold k3_pay1
  simp only [maximumf_apply, addf_apply, broadcast_apply]
  rw [mm_at plain_128x64, broadcastTo_1b_ab_apply]
  simp only [shapeCast_self]
  rfl

/-- Entry (p, q) of the last fully connected layer's stored block: not rectified. -/
theorem pay4_at (x0 : Vec Ideal S5000x64 .f32) (x1 : Vec Ideal S64x1 .f32) (x2 : Vec Ideal S1x1 .f32)
    (p : Fin 5000) (q : Fin 1) :
    k4_pay1 (F := Ideal) x0 x1 x2 (ix2 p q) = fcAt x0 x1 x2 p q := by
  unfold k4_pay1
  simp only [addf_apply]
  rw [mm_at plain_64x1, broadcastTo_1b_ab_apply]
  simp only [shapeCast_self]
  rfl

/-- A convolution entry only reads one row of each feature array: if rows p of the blocks are rows P of the arrays,
    the block's entry (p, q) is the arrays' entry (P, q). -/
theorem convAt_rows {n n' K w : ℕ} (agg h : (⟨2, ![n, K]⟩ : Shape).Idx → EReal) (x0 x1 : (⟨2, ![n', K]⟩ : Shape).Idx → EReal)
    (wrel wroot : (⟨2, ![K, w]⟩ : Shape).Idx → EReal) (b : (⟨2, ![1, w]⟩ : Shape).Idx → EReal) (P : Fin n) (p : Fin n') (q : Fin w)
    (h0 : ∀ k : Fin K, x0 (ix2 p k) = agg (ix2 P k)) (h1 : ∀ k : Fin K, x1 (ix2 p k) = h (ix2 P k)) :
    convAt x0 x1 wrel wroot b p q = convAt agg h wrel wroot b P q := by
  unfold convAt
  rw [denseAt_congr x0 agg wrel p P q h0, denseAt_congr x1 h wroot p P q h1]

/-- The same for a fully connected entry. -/
theorem fcAt_rows {n n' K w : ℕ} (h : (⟨2, ![n, K]⟩ : Shape).Idx → EReal) (x0 : (⟨2, ![n', K]⟩ : Shape).Idx → EReal)
    (W : (⟨2, ![K, w]⟩ : Shape).Idx → EReal) (b : (⟨2, ![1, w]⟩ : Shape).Idx → EReal) (P : Fin n) (p : Fin n') (q : Fin w)
    (h0 : ∀ k : Fin K, x0 (ix2 p k) = h (ix2 P k)) :
    fcAt x0 W b p q = fcAt h W b P q := by
  unfold fcAt
  rw [denseAt_congr x0 h W p P q h0]

end Cert.KernelIdeal.Body

end
-- ==== Proof.Region0.lean ====
/-
  The first graph-convolution layer as a whole array.

  The region runs over 8 grid points; point t loads rows 5000 t … 5000 t + 4999 of the neighbour sums and of the node
  features, the two whole weight matrices and the bias row, and writes back the same rows of the result. Each stored
  entry is the layer's formula on the loaded rows (the payload lemma), the loaded rows are rows of the arrays as the
  region finds them, and the 8 blocks of 5000 rows tile the 40000 rows: so after the region the result array is the
  layer of the whole arrays, entry by entry.
-/
import proofs.«129533_j68959994904998_1_alg».proof.Proof.Gen.KernelIdeal.Frame
import proofs.«129533_j68959994904998_1_alg».proof.Proof.Payloads

set_option maxRecDepth 16384

noncomputable section

namespace Cert.KernelIdeal.Layers

open Cert.KernelIdeal Cert.KernelIdeal.Gen Cert.KernelIdeal.Body Idealize.ShloMosaic Idealize.ShloMosaic.TcCoe Idealize.ShloMosaic.ValueIdx Cert.GraphNet
open Idealize.ShloMosaic.Pipeline (Dat Cfg Window)

variable (V : (c : Dev nD) → (b : Ref sig .tc) → Buf (Elt Ideal) ((c : Thread nD τ).loc b))

theorem hz2_0 : (![0, 0] : Fin 2 → Nat) = fun _ => 0 := funext fun a => by fin_cases a <;> rfl

/-- The printed index maps, decided over the grid: the two feature windows and the result window sit at block row
    t, the weights and the bias at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One stored entry against the whole arrays: when rows p of the loaded feature blocks are rows P of the arrays and
    the loaded weights and bias are the arrays', entry (p, q) of the stored block is entry (P, q) of the layer. -/
theorem entry0 (agg h : (⟨2, ![40000, 128]⟩ : Shape).Idx → EReal) (wrel wroot : (⟨2, ![128, 128]⟩ : Shape).Idx → EReal)
    (b : (⟨2, ![1, 128]⟩ : Shape).Idx → EReal)
    (x0 x1 : Vec Ideal S5000x128 .f32) (x2 x3 : Vec Ideal S128x128 .f32) (x4 : Vec Ideal S1x128 .f32)
    (P : Fin 40000) (p : Fin 5000) (q : Fin 128)
    (h0 : ∀ k : Fin 128, x0 (ix2 p k) = agg (ix2 P k)) (h1 : ∀ k : Fin 128, x1 (ix2 p k) = h (ix2 P k))
    (h2 : x2 = wrel) (h3 : x3 = wroot) (h4 : x4 = b) :
    k0_pay1 (F := Ideal) x0 x1 x2 x3 x4 (ix2 p q) = conv true agg h wrel wroot b (ix2 P q) := by
  subst h2 h3 h4
  rw [pay0_at]
  show _ = max (convAt agg h x2 x3 x4 P q) zero32
  refine congrArg (fun z => max z zero32) ?_
  exact convAt_rows agg h x0 x1 x2 x3 x4 P p q h0 h1

/-- What point t writes back is block t of the layer of the arrays as the region finds them. -/
theorem flushed0 (c : Dev nD) (t : Fin cfg0.N) :
    (dat0 V c).flushed 5 t = ((cfg0.win 5).blk t).view.read (Elt Ideal)
      (conv true (V c main_v13) (V c main_arg0) (V c main_arg2) (V c main_arg3) (V c main_v14)) := by
  show (cfg0.win 5).cut (grid0.coords t) ((dat0 V c).after 5 t) = _
  rw [after0_5]
  unfold out0_5
  rw [View.canon_unit_zero hz2_0]
  simp only [View.ld_unit_zero (S := S5000x128) hz2_0, View.ld_unit_zero (S := S128x128) hz2_0, View.ld_unit_zero (S := S1x128) hz2_0]
  obtain ⟨e00, e01, e10, e11, e20, e21, e30, e31, e40, e41, e50, e51⟩ := idx0 t
  have ht : t.val < 8 := by have h : t.val < grid0.N := t.isLt; rw [N_0] at h; exact h
  funext j
  obtain ⟨p, q, rfl⟩ : ∃ (p : Fin 5000) (q : Fin 128), j = ix2 p q := ⟨j 0, j 1, eq_ix2 j⟩
  have hp : p.val < 5000 := p.isLt
  have hE : ((cfg0.win 5).blk t).view.emb (ix2 p q) = ix2 (⟨t.val * 5000 + p.val, by omega⟩ : Fin 40000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
    = conv true (V c main_v13) (V c main_arg0) (V c main_arg2) (V c main_arg3) (V c main_v14) (((cfg0.win 5).blk t).view.emb (ix2 p q))
  rw [hE]
  refine entry0 (V c main_v13) (V c main_arg0) (V c main_arg2) (V c main_arg3) (V c main_v14)
    (iblk0 V c 0 t) (iblk0 V c 1 t) (iblk0 V c 2 t) (iblk0 V c 3 t) (iblk0 V c 4 t) ⟨t.val * 5000 + p.val, by omega⟩ p q ?_ ?_ ?_ ?_ ?_
  · intro k
    show V c main_v13 (((cfg0.win 0).blk t).view.emb (ix2 p k)) = V c main_v13 (ix2 (⟨t.val * 5000 + p.val, by omega⟩ : Fin 40000) k)
    refine congrArg (V c main_v13) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_arg0 (((cfg0.win 1).blk t).view.emb (ix2 p k)) = V c main_arg0 (ix2 (⟨t.val * 5000 + p.val, by omega⟩ : Fin 40000) k)
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg3 (((cfg0.win 3).blk t).view.emb y) = V c main_arg3 y
    refine congrArg (V c main_arg3) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v14 (((cfg0.win 4).blk t).view.emb y) = V c main_v14 y
    refine congrArg (V c main_v14) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

/-- An index of the result array is in point t's block iff each coordinate is in the block's range on its axis. -/
theorem mem_blk0 (t : Fin cfg0.N) (i : S40000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15).slice (win0_5.rect t)).set ↔ _
  rw [View.set_slice_whole, Rect.mem_set_unit]
  exact Iff.rfl

/-- Every row of the result lies in the block of the point numbered by its row divided by 5000. -/
theorem cover0 (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  have hN : grid0.N = 8 := N_0
  have hlt : (i 0).val / 5000 < grid0.N := by rw [hN]; omega
  obtain ⟨-, -, -, -, -, -, -, -, -, -, e50, e51⟩ := idx0 ⟨(i 0).val / 5000, hlt⟩
  have e50' : win0_5.index ⟨(i 0).val / 5000, hlt⟩ (0 : Fin 2) = (i 0).val / 5000 := e50
  refine ⟨⟨(i 0).val / 5000, hlt⟩, flush0_5 _, ?_⟩
  rw [mem_blk0]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    omega

/-- After the region the result array is the layer of the arrays as the region finds them. -/
theorem region0 (c : Dev nD) :
    (dat0 V c).arrAt 5 cfg0.N = conv true (V c main_v13) (V c main_arg0) (V c main_arg2) (V c main_arg3) (V c main_v14) :=
  (dat0 V c).arrAt_eq_of_cover 5 _ (fun t _ => flushed0 V c t) (cover0)

end Cert.KernelIdeal.Layers

end
-- ==== Proof.Region1.lean ====
/-
  The second graph-convolution layer as a whole array.

  The region runs over 8 grid points; point t loads rows 5000 t … 5000 t + 4999 of the neighbour sums and of the node
  features, the two whole weight matrices and the bias row, and writes back the same rows of the result. Each stored
  entry is the layer's formula on the loaded rows (the payload lemma), the loaded rows are rows of the arrays as the
  region finds them, and the 8 blocks of 5000 rows tile the 40000 rows: so after the region the result array is the
  layer of the whole arrays, entry by entry.
-/
import proofs.«129533_j68959994904998_1_alg».proof.Proof.Gen.KernelIdeal.Frame
import proofs.«129533_j68959994904998_1_alg».proof.Proof.Payloads

set_option maxRecDepth 16384

noncomputable section

namespace Cert.KernelIdeal.Layers

open Cert.KernelIdeal Cert.KernelIdeal.Gen Cert.KernelIdeal.Body Idealize.ShloMosaic Idealize.ShloMosaic.TcCoe Idealize.ShloMosaic.ValueIdx Cert.GraphNet
open Idealize.ShloMosaic.Pipeline (Dat Cfg Window)

variable (V : (c : Dev nD) → (b : Ref sig .tc) → Buf (Elt Ideal) ((c : Thread nD τ).loc b))

theorem hz2_1 : (![0, 0] : Fin 2 → Nat) = fun _ => 0 := funext fun a => by fin_cases a <;> rfl

/-- The printed index maps, decided over the grid: the two feature windows and the result window sit at block row
    t, the weights and the bias at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One stored entry against the whole arrays: when rows p of the loaded feature blocks are rows P of the arrays and
    the loaded weights and bias are the arrays', entry (p, q) of the stored block is entry (P, q) of the layer. -/
theorem entry1 (agg h : (⟨2, ![40000, 128]⟩ : Shape).Idx → EReal) (wrel wroot : (⟨2, ![128, 128]⟩ : Shape).Idx → EReal)
    (b : (⟨2, ![1, 128]⟩ : Shape).Idx → EReal)
    (x0 x1 : Vec Ideal S5000x128 .f32) (x2 x3 : Vec Ideal S128x128 .f32) (x4 : Vec Ideal S1x128 .f32)
    (P : Fin 40000) (p : Fin 5000) (q : Fin 128)
    (h0 : ∀ k : Fin 128, x0 (ix2 p k) = agg (ix2 P k)) (h1 : ∀ k : Fin 128, x1 (ix2 p k) = h (ix2 P k))
    (h2 : x2 = wrel) (h3 : x3 = wroot) (h4 : x4 = b) :
    k1_pay1 (F := Ideal) x0 x1 x2 x3 x4 (ix2 p q) = conv true agg h wrel wroot b (ix2 P q) := by
  subst h2 h3 h4
  rw [pay1_at]
  show _ = max (convAt agg h x2 x3 x4 P q) zero32
  refine congrArg (fun z => max z zero32) ?_
  exact convAt_rows agg h x0 x1 x2 x3 x4 P p q h0 h1

/-- What point t writes back is block t of the layer of the arrays as the region finds them. -/
theorem flushed1 (c : Dev nD) (t : Fin cfg1.N) :
    (dat1 V c).flushed 5 t = ((cfg1.win 5).blk t).view.read (Elt Ideal)
      (conv true (V c main_v25) (V c main_v15) (V c main_arg5) (V c main_arg6) (V c main_v26)) := by
  show (cfg1.win 5).cut (grid1.coords t) ((dat1 V c).after 5 t) = _
  rw [after1_5]
  unfold out1_5
  rw [View.canon_unit_zero hz2_1]
  simp only [View.ld_unit_zero (S := S5000x128) hz2_1, View.ld_unit_zero (S := S128x128) hz2_1, View.ld_unit_zero (S := S1x128) hz2_1]
  obtain ⟨e00, e01, e10, e11, e20, e21, e30, e31, e40, e41, e50, e51⟩ := idx1 t
  have ht : t.val < 8 := by have h : t.val < grid1.N := t.isLt; rw [N_1] at h; exact h
  funext j
  obtain ⟨p, q, rfl⟩ : ∃ (p : Fin 5000) (q : Fin 128), j = ix2 p q := ⟨j 0, j 1, eq_ix2 j⟩
  have hp : p.val < 5000 := p.isLt
  have hE : ((cfg1.win 5).blk t).view.emb (ix2 p q) = ix2 (⟨t.val * 5000 + p.val, by omega⟩ : Fin 40000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q)
    = conv true (V c main_v25) (V c main_v15) (V c main_arg5) (V c main_arg6) (V c main_v26) (((cfg1.win 5).blk t).view.emb (ix2 p q))
  rw [hE]
  refine entry1 (V c main_v25) (V c main_v15) (V c main_arg5) (V c main_arg6) (V c main_v26)
    (iblk1 V c 0 t) (iblk1 V c 1 t) (iblk1 V c 2 t) (iblk1 V c 3 t) (iblk1 V c 4 t) ⟨t.val * 5000 + p.val, by omega⟩ p q ?_ ?_ ?_ ?_ ?_
  · intro k
    show V c main_v25 (((cfg1.win 0).blk t).view.emb (ix2 p k)) = V c main_v25 (ix2 (⟨t.val * 5000 + p.val, by omega⟩ : Fin 40000) k)
    refine congrArg (V c main_v25) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v15 (((cfg1.win 1).blk t).view.emb (ix2 p k)) = V c main_v15 (ix2 (⟨t.val * 5000 + p.val, by omega⟩ : Fin 40000) k)
    refine congrArg (V c main_v15) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg6 (((cfg1.win 3).blk t).view.emb y) = V c main_arg6 y
    refine congrArg (V c main_arg6) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v26 (((cfg1.win 4).blk t).view.emb y) = V c main_v26 y
    refine congrArg (V c main_v26) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega

/-- An index of the result array is in point t's block iff each coordinate is in the block's range on its axis. -/
theorem mem_blk1 (t : Fin cfg1.N) (i : S40000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v27).slice (win1_5.rect t)).set ↔ _
  rw [View.set_slice_whole, Rect.mem_set_unit]
  exact Iff.rfl

/-- Every row of the result lies in the block of the point numbered by its row divided by 5000. -/
theorem cover1 (i : S40000x128.Idx) : ∃ t : Fin cfg1.N, (cfg1.win 5).flush t = true ∧ i ∈ ((cfg1.win 5).blk t).view.set := by
  have hi0 : (i 0).val < 40000 := (i 0).isLt
  have hi1 : (i 1).val < 128 := (i 1).isLt
  have hN : grid1.N = 8 := N_1
  have hlt : (i 0).val / 5000 < grid1.N := by rw [hN]; omega
  obtain ⟨-, -, -, -, -, -, -, -, -, -, e50, e51⟩ := idx1 ⟨(i 0).val / 5000, hlt⟩
  have e50' : win1_5.index ⟨(i 0).val / 5000, hlt⟩ (0 : Fin 2) = (i 0).val / 5000 := e50
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    omega

/-- After the region the result array is the layer of the arrays as the region finds them. -/
theorem region1 (c : Dev nD) :
    (dat1 V c).arrAt 5 cfg1.N = conv true (V c main_v25) (V c main_v15) (V c main_arg5) (V c main_arg6) (V c main_v26) :=
  (dat1 V c).arrAt_eq_of_cover 5 _ (fun t _ => flushed1 V c t) (cover1)

end Cert.KernelIdeal.Layers

end
-- ==== Proof.Region2.lean ====
/-
  The third graph-convolution layer as a whole array.

  The region runs over 8 grid points; point t loads rows 5000 t … 5000 t + 4999 of the neighbour sums and of the node
  features, the two whole weight matrices and the bias row, and writes back the same rows of the result. Each stored
  entry is the layer's formula on the loaded rows (the payload lemma), the loaded rows are rows of the arrays as the
  region finds them, and the 8 blocks of 5000 rows tile the 40000 rows: so after the region the result array is the
  layer of the whole arrays, entry by entry.
-/
import proofs.«129533_j68959994904998_1_alg».proof.Proof.Gen.KernelIdeal.Frame
import proofs.«129533_j68959994904998_1_alg».proof.Proof.Payloads

set_option maxRecDepth 16384

noncomputable section

namespace Cert.KernelIdeal.Layers

open Cert.KernelIdeal Cert.KernelIdeal.Gen Cert.KernelIdeal.Body Idealize.ShloMosaic Idealize.ShloMosaic.TcCoe Idealize.ShloMosaic.ValueIdx Cert.GraphNet
open Idealize.ShloMosaic.Pipeline (Dat Cfg Window)

variable (V : (c : Dev nD) → (b : Ref sig .tc) → Buf (Elt Ideal) ((c : Thread nD τ).loc b))

theorem hz2_2 : (![0, 0] : Fin 2 → Nat) = fun _ => 0 := funext fun a => by fin_cases a <;> rfl

/-- The printed index maps, decided over the grid: the two feature windows and the result window sit at block row
    t, the weights and the bias at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One stored entry against the whole arrays: when rows p of the loaded feature blocks are rows P of the arrays and
    the loaded weights and bias are the arrays', entry (p, q) of the stored block is entry (P, q) of the layer. -/
theorem entry2 (agg h : (⟨2, ![40000, 128]⟩ : Shape).Idx → EReal) (wrel wroot : (⟨2, ![128, 128]⟩ : Shape).Idx → EReal)
    (b : (⟨2, ![1, 128]⟩ : Shape).Idx → EReal)
    (x0 x1 : Vec Ideal S5000x128 .f32) (x2 x3 : Vec Ideal S128x128 .f32) (x4 : Vec Ideal S1x128 .f32)
    (P : Fin 40000) (p : Fin 5000) (q : Fin 128)
    (h0 : ∀ k : Fin 128, x0 (ix2 p k) = agg (ix2 P k)) (h1 : ∀ k : Fin 128, x1 (ix2 p k) = h (ix2 P k))
    (h2 : x2 = wrel) (h3 : x3 = wroot) (h4 : x4 = b) :
    k2_pay1 (F := Ideal) x0 x1 x2 x3 x4 (ix2 p q) = conv false agg h wrel wroot b (ix2 P q) := by
  subst h2 h3 h4
  rw [pay2_at]
  show _ = convAt agg h x2 x3 x4 P q
  exact convAt_rows agg h x0 x1 x2 x3 x4 P p q h0 h1

/-- What point t writes back is block t of the layer of the arrays as the region finds them. -/
theorem flushed2 (c : Dev nD) (t : Fin cfg2.N) :
    (dat2 V c).flushed 5 t = ((cfg2.win 5).blk t).view.read (Elt Ideal)
      (conv false (V c main_v37) (V c main_v27) (V c main_arg8) (V c main_arg9) (V c main_v38)) := by
  show (cfg2.win 5).cut (grid2.coords t) ((dat2 V c).after 5 t) = _
  rw [after2_5]
  unfold out2_5
  rw [View.canon_unit_zero hz2_2]
  simp only [View.ld_unit_zero (S := S5000x128) hz2_2, View.ld_unit_zero (S := S128x128) hz2_2, View.ld_unit_zero (S := S1x128) hz2_2]
  obtain ⟨e00, e01, e10, e11, e20, e21, e30, e31, e40, e41, e50, e51⟩ := idx2 t
  have ht : t.val < 8 := by have h : t.val < grid2.N := t.isLt; rw [N_2] at h; exact h
  funext j
  obtain ⟨p, q, rfl⟩ : ∃ (p : Fin 5000) (q : Fin 128), j = ix2 p q := ⟨j 0, j 1, eq_ix2 j⟩
  have hp : p.val < 5000 := p.isLt
  have hE : ((cfg2.win 5).blk t).view.emb (ix2 p q) = ix2 (⟨t.val * 5000 + p.val, by omega⟩ : Fin 40000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  show k2_pay1 (iblk2 V c 0 t) (iblk2 V c 1 t) (iblk2 V c 2 t) (iblk2 V c 3 t) (iblk2 V c 4 t) (ix2 p q)
    = conv false (V c main_v37) (V c main_v27) (V c main_arg8) (V c main_arg9) (V c main_v38) (((cfg2.win 5).blk t).view.emb (ix2 p q))
  rw [hE]
  refine entry2 (V c main_v37) (V c main_v27) (V c main_arg8) (V c main_arg9) (V c main_v38)
    (iblk2 V c 0 t) (iblk2 V c 1 t) (iblk2 V c 2 t) (iblk2 V c 3 t) (iblk2 V c 4 t) ⟨t.val * 5000 + p.val, by omega⟩ p q ?_ ?_ ?_ ?_ ?_
  · intro k
    show V c main_v37 (((cfg2.win 0).blk t).view.emb (ix2 p k)) = V c main_v37 (ix2 (⟨t.val * 5000 + p.val, by omega⟩ : Fin 40000) k)
    refine congrArg (V c main_v37) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k
    show V c main_v27 (((cfg2.win 1).blk t).view.emb (ix2 p k)) = V c main_v27 (ix2 (⟨t.val * 5000 + p.val, by omega⟩ : Fin 40000) k)
    refine congrArg (V c main_v27) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  · funext y
    show V c main_arg8 (((cfg2.win 2).blk t).view.emb y) = V c main_arg8 y
    refine congrArg (V c main_arg8) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_arg9 (((cfg2.win 3).blk t).view.emb y) = V c main_arg9 y
    refine congrArg (V c main_arg9) (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · funext y
    show V c main_v38 (((cfg2.win 4).blk t).view.emb y) = V c main_v38 y
    refine congrArg (V c main_v38) (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega

/-- An index of the result array is in point t's block iff each coordinate is in the block's range on its axis. -/
theorem mem_blk2 (t : Fin cfg2.N) (i : S40000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v39).slice (win2_5.rect t)).set ↔ _
  rw [View.set_slice_whole, Rect.mem_set_unit]
  exact Iff.rfl

/-- Every row of the result lies in the block of the point numbered by its row divided by 5000. -/
theorem cover2 (i : S40000x128.Idx) : ∃ t : Fin cfg2.N, (cfg2.win 5).flush t = true ∧ i ∈ ((cfg2.win 5).blk t).view.set := by
  have hi0 : (i 0).val < 40000 := (i 0).isLt
  have hi1 : (i 1).val < 128 := (i 1).isLt
  have hN : grid2.N = 8 := N_2
  have hlt : (i 0).val / 5000 < grid2.N := by rw [hN]; omega
  obtain ⟨-, -, -, -, -, -, -, -, -, -, e50, e51⟩ := idx2 ⟨(i 0).val / 5000, hlt⟩
  have e50' : win2_5.index ⟨(i 0).val / 5000, hlt⟩ (0 : Fin 2) = (i 0).val / 5000 := e50
  refine ⟨⟨(i 0).val / 5000, hlt⟩, flush2_5 _, ?_⟩
  rw [mem_blk2]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    omega

/-- After the region the result array is the layer of the arrays as the region finds them. -/
theorem region2 (c : Dev nD) :
    (dat2 V c).arrAt 5 cfg2.N = conv false (V c main_v37) (V c main_v27) (V c main_arg8) (V c main_arg9) (V c main_v38) :=
  (dat2 V c).arrAt_eq_of_cover 5 _ (fun t _ => flushed2 V c t) (cover2)

end Cert.KernelIdeal.Layers

end
-- ==== Proof.Region3.lean ====
/-
  The first fully connected layer as a whole array.

  The region runs over 8 grid points; point t loads rows 5000 t … 5000 t + 4999 of the features, the whole weight
  matrix and the bias row, and writes back the same rows of the result. Each stored entry is the layer's formula on
  the loaded rows, the loaded rows are rows of the array as the region finds it, and the 8 blocks of 5000 rows tile
  the 40000 rows: so after the region the result array is the layer of the whole arrays, entry by entry.
-/
import proofs.«129533_j68959994904998_1_alg».proof.Proof.Gen.KernelIdeal.Frame
import proofs.«129533_j68959994904998_1_alg».proof.Proof.Payloads

set_option maxRecDepth 16384

noncomputable section

namespace Cert.KernelIdeal.Layers

open Cert.KernelIdeal Cert.KernelIdeal.Gen Cert.KernelIdeal.Body Idealize.ShloMosaic Idealize.ShloMosaic.TcCoe Idealize.ShloMosaic.ValueIdx Cert.GraphNet
open Idealize.ShloMosaic.Pipeline (Dat Cfg Window)

variable (V : (c : Dev nD) → (b : Ref sig .tc) → Buf (Elt Ideal) ((c : Thread nD τ).loc b))

theorem hz2_3 : (![0, 0] : Fin 2 → Nat) = fun _ => 0 := funext fun a => by fin_cases a <;> rfl

/-- The printed index maps, decided over the grid: the feature window and the result window sit at block row t, the
    weights and the bias at block 0. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One stored entry against the whole arrays: when row p of the loaded feature block is row P of the array and the
    loaded weights and bias are the arrays', entry (p, q) of the stored block is entry (P, q) of the layer. -/
theorem entry3 (h : (⟨2, ![40000, 128]⟩ : Shape).Idx → EReal) (W : (⟨2, ![128, 64]⟩ : Shape).Idx → EReal)
    (b : (⟨2, ![1, 64]⟩ : Shape).Idx → EReal)
    (x0 : Vec Ideal S5000x128 .f32) (x1 : Vec Ideal S128x64 .f32) (x2 : Vec Ideal S1x64 .f32)
    (P : Fin 40000) (p : Fin 5000) (q : Fin 64)
    (h0 : ∀ k : Fin 128, x0 (ix2 p k) = h (ix2 P k)) (h1 : x1 = W) (h2 : x2 = b) :
    k3_pay1 (F := Ideal) x0 x1 x2 (ix2 p q) = fc true h W b (ix2 P q) := by
  subst h1 h2
  rw [pay3_at]
  show _ = max (fcAt h x1 x2 P q) zero32
  refine congrArg (fun z => max z zero32) ?_
  exact fcAt_rows h x0 x1 x2 P p q h0

/-- What point t writes back is block t of the layer of the arrays as the region finds them. -/
theorem flushed3 (c : Dev nD) (t : Fin cfg3.N) :
    (dat3 V c).flushed 3 t = ((cfg3.win 3).blk t).view.read (Elt Ideal)
      (fc true (V c main_v39) (V c main_arg11) (V c main_v40)) := by
  show (cfg3.win 3).cut (grid3.coords t) ((dat3 V c).after 3 t) = _
  rw [after3_3]
  unfold out3_3
  rw [View.canon_unit_zero hz2_3]
  simp only [View.ld_unit_zero (S := S5000x128) hz2_3, View.ld_unit_zero (S := S128x64) hz2_3, View.ld_unit_zero (S := S1x64) hz2_3]
  obtain ⟨e00, e01, e10, e11, e20, e21, e30, e31⟩ := idx3 t
  have ht : t.val < 8 := by have h : t.val < grid3.N := t.isLt; rw [N_3] at h; exact h
  funext j
  obtain ⟨p, q, rfl⟩ : ∃ (p : Fin 5000) (q : Fin 64), j = ix2 p q := ⟨j 0, j 1, eq_ix2 j⟩
  have hp : p.val < 5000 := p.isLt
  have hE : ((cfg3.win 3).blk t).view.emb (ix2 p q) = ix2 (⟨t.val * 5000 + p.val, by omega⟩ : Fin 40000) q := by
    funext a; apply Fin.ext
    match a with
    | ⟨0, _⟩ => show win3_3.index t (0 : Fin 2) * 5000 + 1 * p.val = t.val * 5000 + p.val; omega
    | ⟨1, _⟩ => show win3_3.index t (1 : Fin 2) * 64 + 1 * q.val = q.val; omega
  show k3_pay1 (iblk3 V c 0 t) (iblk3 V c 1 t) (iblk3 V c 2 t) (ix2 p q)
    = fc true (V c main_v39) (V c main_arg11) (V c main_v40) (((cfg3.win 3).blk t).view.emb (ix2 p q))
  rw [hE]
  refine entry3 (V c main_v39) (V c main_arg11) (V c main_v40)
    (iblk3 V c 0 t) (iblk3 V c 1 t) (iblk3 V c 2 t) ⟨t.val * 5000 + p.val, by omega⟩ p q ?_ ?_ ?_
  · intro k
    show V c main_v39 (((cfg3.win 0).blk t).view.emb (ix2 p k)) = V c main_v39 (ix2 (⟨t.val * 5000 + p.val, by omega⟩ : Fin 40000) k)
    refine congrArg (V c main_v39) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · funext y
    show V c main_arg11 (((cfg3.win 1).blk t).view.emb y) = V c main_arg11 y
    refine congrArg (V c main_arg11) (funext fun a => Fin.ext ?_)
    match a with
    | ⟨0, _⟩ => show win3_1.index t (0 : Fin 2) * 128 + 1 * (y 0).val = (y 0).val; omega
    | ⟨1, _⟩ => show win3_1.index t (1 : Fin 2) * 64 + 1 * (y 1).val = (y 1).val; omega
  · funext y
    show V c main_v40 (((cfg3.win 2).blk t).view.emb y) = V c main_v40 y
    refine congrArg (V c main_v40) (funext fun a => Fin.ext ?_)
    match a with
    | ⟨0, _⟩ => show win3_2.index t (0 : Fin 2) * 1 + 1 * (y 0).val = (y 0).val; omega
    | ⟨1, _⟩ => show win3_2.index t (1 : Fin 2) * 64 + 1 * (y 1).val = (y 1).val; omega

/-- An index of the result array is in point t's block iff each coordinate is in the block's range on its axis. -/
theorem mem_blk3 (t : Fin cfg3.N) (i : S40000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v41).slice (win3_3.rect t)).set ↔ _
  rw [View.set_slice_whole, Rect.mem_set_unit]
  exact Iff.rfl

/-- Every row of the result lies in the block of the point numbered by its row divided by 5000. -/
theorem cover3 (i : S40000x64.Idx) : ∃ t : Fin cfg3.N, (cfg3.win 3).flush t = true ∧ i ∈ ((cfg3.win 3).blk t).view.set := by
  have hi0 : (i 0).val < 40000 := (i 0).isLt
  have hi1 : (i 1).val < 64 := (i 1).isLt
  have hN : grid3.N = 8 := N_3
  have hlt : (i 0).val / 5000 < grid3.N := by rw [hN]; omega
  obtain ⟨-, -, -, -, -, -, e30, e31⟩ := idx3 ⟨(i 0).val / 5000, hlt⟩
  have e30' : win3_3.index ⟨(i 0).val / 5000, hlt⟩ (0 : Fin 2) = (i 0).val / 5000 := e30
  refine ⟨⟨(i 0).val / 5000, hlt⟩, flush3_3 _, ?_⟩
  rw [mem_blk3]
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    omega
  | ⟨1, _⟩ =>
    show win3_3.index ⟨(i 0).val / 5000, hlt⟩ (1 : Fin 2) * 64 ≤ (i 1).val ∧ (i 1).val < win3_3.index ⟨(i 0).val / 5000, hlt⟩ (1 : Fin 2) * 64 + 64
    omega

/-- After the region the result array is the layer of the arrays as the region finds them. -/
theorem region3 (c : Dev nD) :
    (dat3 V c).arrAt 3 cfg3.N = fc true (V c main_v39) (V c main_arg11) (V c main_v40) :=
  (dat3 V c).arrAt_eq_of_cover 3 _ (fun t _ => flushed3 V c t) (cover3)

end Cert.KernelIdeal.Layers

end
-- ==== Proof.Region4.lean ====
/-
  The last fully connected layer as a whole array.

  The region runs over 8 grid points; point t loads rows 5000 t … 5000 t + 4999 of the features, the whole weight
  matrix and the bias row, and writes back the same rows of the result. Each stored entry is the layer's formula on
  the loaded rows, the loaded rows are rows of the array as the region finds it, and the 8 blocks of 5000 rows tile
  the 40000 rows: so after the region the result array is the layer of the whole arrays, entry by entry.
-/
import proofs.«129533_j68959994904998_1_alg».proof.Proof.Gen.KernelIdeal.Frame
import proofs.«129533_j68959994904998_1_alg».proof.Proof.Payloads

set_option maxRecDepth 16384

noncomputable section

namespace Cert.KernelIdeal.Layers

open Cert.KernelIdeal Cert.KernelIdeal.Gen Cert.KernelIdeal.Body Idealize.ShloMosaic Idealize.ShloMosaic.TcCoe Idealize.ShloMosaic.ValueIdx Cert.GraphNet
open Idealize.ShloMosaic.Pipeline (Dat Cfg Window)

variable (V : (c : Dev nD) → (b : Ref sig .tc) → Buf (Elt Ideal) ((c : Thread nD τ).loc b))

theorem hz2_4 : (![0, 0] : Fin 2 → Nat) = fun _ => 0 := funext fun a => by fin_cases a <;> rfl

/-- The printed index maps, decided over the grid: the feature window and the result window sit at block row t, the
    weights and the bias at block 0. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- One stored entry against the whole arrays: when row p of the loaded feature block is row P of the array and the
    loaded weights and bias are the arrays', entry (p, q) of the stored block is entry (P, q) of the layer. -/
theorem entry4 (h : (⟨2, ![40000, 64]⟩ : Shape).Idx → EReal) (W : (⟨2, ![64, 1]⟩ : Shape).Idx → EReal)
    (b : (⟨2, ![1, 1]⟩ : Shape).Idx → EReal)
    (x0 : Vec Ideal S5000x64 .f32) (x1 : Vec Ideal S64x1 .f32) (x2 : Vec Ideal S1x1 .f32)
    (P : Fin 40000) (p : Fin 5000) (q : Fin 1)
    (h0 : ∀ k : Fin 64, x0 (ix2 p k) = h (ix2 P k)) (h1 : x1 = W) (h2 : x2 = b) :
    k4_pay1 (F := Ideal) x0 x1 x2 (ix2 p q) = fc false h W b (ix2 P q) := by
  subst h1 h2
  rw [pay4_at]
  show _ = fcAt h x1 x2 P q
  exact fcAt_rows h x0 x1 x2 P p q h0

/-- What point t writes back is block t of the layer of the arrays as the region finds them. -/
theorem flushed4 (c : Dev nD) (t : Fin cfg4.N) :
    (dat4 V c).flushed 3 t = ((cfg4.win 3).blk t).view.read (Elt Ideal)
      (fc false (V c main_v41) (V c main_arg13) (V c main_v42)) := by
  show (cfg4.win 3).cut (grid4.coords t) ((dat4 V c).after 3 t) = _
  rw [after4_3]
  unfold out4_3
  rw [View.canon_unit_zero hz2_4]
  simp only [View.ld_unit_zero (S := S5000x64) hz2_4, View.ld_unit_zero (S := S64x1) hz2_4, View.ld_unit_zero (S := S1x1) hz2_4]
  obtain ⟨e00, e01, e10, e11, e20, e21, e30, e31⟩ := idx4 t
  have ht : t.val < 8 := by have h : t.val < grid4.N := t.isLt; rw [N_4] at h; exact h
  funext j
  obtain ⟨p, q, rfl⟩ : ∃ (p : Fin 5000) (q : Fin 1), j = ix2 p q := ⟨j 0, j 1, eq_ix2 j⟩
  have hp : p.val < 5000 := p.isLt
  have hE : ((cfg4.win 3).blk t).view.emb (ix2 p q) = ix2 (⟨t.val * 5000 + p.val, by omega⟩ : Fin 40000) q := by
    funext a; apply Fin.ext
    match a with
    | ⟨0, _⟩ => show win4_3.index t (0 : Fin 2) * 5000 + 1 * p.val = t.val * 5000 + p.val; omega
    | ⟨1, _⟩ => show win4_3.index t (1 : Fin 2) * 1 + 1 * q.val = q.val; omega
  show k4_pay1 (iblk4 V c 0 t) (iblk4 V c 1 t) (iblk4 V c 2 t) (ix2 p q)
    = fc false (V c main_v41) (V c main_arg13) (V c main_v42) (((cfg4.win 3).blk t).view.emb (ix2 p q))
  rw [hE]
  refine entry4 (V c main_v41) (V c main_arg13) (V c main_v42)
    (iblk4 V c 0 t) (iblk4 V c 1 t) (iblk4 V c 2 t) ⟨t.val * 5000 + p.val, by omega⟩ p q ?_ ?_ ?_
  · intro k
    show V c main_v41 (((cfg4.win 0).blk t).view.emb (ix2 p k)) = V c main_v41 (ix2 (⟨t.val * 5000 + p.val, by omega⟩ : Fin 40000) k)
    refine congrArg (V c main_v41) (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * k.val = k.val; omega
  · funext y
    show V c main_arg13 (((cfg4.win 1).blk t).view.emb y) = V c main_arg13 y
    refine congrArg (V c main_arg13) (funext fun a => Fin.ext ?_)
    match a with
    | ⟨0, _⟩ => show win4_1.index t (0 : Fin 2) * 64 + 1 * (y 0).val = (y 0).val; omega
    | ⟨1, _⟩ => show win4_1.index t (1 : Fin 2) * 1 + 1 * (y 1).val = (y 1).val; omega
  · funext y
    show V c main_v42 (((cfg4.win 2).blk t).view.emb y) = V c main_v42 y
    refine congrArg (V c main_v42) (funext fun a => Fin.ext ?_)
    match a with
    | ⟨0, _⟩ => show win4_2.index t (0 : Fin 2) * 1 + 1 * (y 0).val = (y 0).val; omega
    | ⟨1, _⟩ => show win4_2.index t (1 : Fin 2) * 1 + 1 * (y 1).val = (y 1).val; omega

/-- An index of the result array is in point t's block iff each coordinate is in the block's range on its axis. -/
theorem mem_blk4 (t : Fin cfg4.N) (i : S40000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v43).slice (win4_3.rect t)).set ↔ _
  rw [View.set_slice_whole, Rect.mem_set_unit]
  exact Iff.rfl

/-- Every row of the result lies in the block of the point numbered by its row divided by 5000. -/
theorem cover4 (i : S40000x1.Idx) : ∃ t : Fin cfg4.N, (cfg4.win 3).flush t = true ∧ i ∈ ((cfg4.win 3).blk t).view.set := by
  have hi0 : (i 0).val < 40000 := (i 0).isLt
  have hi1 : (i 1).val < 1 := (i 1).isLt
  have hN : grid4.N = 8 := N_4
  have hlt : (i 0).val / 5000 < grid4.N := by rw [hN]; omega
  obtain ⟨-, -, -, -, -, -, e30, e31⟩ := idx4 ⟨(i 0).val / 5000, hlt⟩
  have e30' : win4_3.index ⟨(i 0).val / 5000, hlt⟩ (0 : Fin 2) = (i 0).val / 5000 := e30
  refine ⟨⟨(i 0).val / 5000, hlt⟩, flush4_3 _, ?_⟩
  rw [mem_blk4]
  intro a
  match a with
  | ⟨0, _⟩ =>
    show win4_3.index ⟨(i 0).val / 5000, hlt⟩ (0 : Fin 2) * 5000 ≤ (i 0).val ∧ (i 0).val < win4_3.index ⟨(i 0).val / 5000, hlt⟩ (0 : Fin 2) * 5000 + 5000
    omega
  | ⟨1, _⟩ =>
    show win4_3.index ⟨(i 0).val / 5000, hlt⟩ (1 : Fin 2) * 1 ≤ (i 1).val ∧ (i 1).val < win4_3.index ⟨(i 0).val / 5000, hlt⟩ (1 : Fin 2) * 1 + 1
    omega

/-- After the region the result array is the layer of the arrays as the region finds them. -/
theorem region4 (c : Dev nD) :
    (dat4 V c).arrAt 3 cfg4.N = fc false (V c main_v41) (V c main_arg13) (V c main_v42) :=
  (dat4 V c).arrAt_eq_of_cover 3 _ (fun t _ => flushed4 V c t) (cover4)

end Cert.KernelIdeal.Layers

end
-- ==== Proof.KernelValue.lean ====
/-
  The idealized kernel's result as one function of its arguments.

  The run's buffer contents are a fold through ten boundaries. A stretch of host operations computes the neighbour
  sums of the current features (a gather by the edge sources, a scatter-add into the edge destinations), lays a bias
  vector out as a row, and keeps every other buffer; a kernel region keeps every buffer that is not one of its
  arrays and leaves its result array at its layer of the arrays it finds. Walking the fold from the launch memory,
  buffer by buffer, the five layers' outputs are the five layers of the network applied in turn, and the result
  buffer ends at the whole network of the argument arrays.
-/
import proofs.«129533_j68959994904998_1_alg».proof.Proof.KernelRun
import proofs.«129533_j68959994904998_1_alg».proof.Proof.Region0
import proofs.«129533_j68959994904998_1_alg».proof.Proof.Region1
import proofs.«129533_j68959994904998_1_alg».proof.Proof.Region2
import proofs.«129533_j68959994904998_1_alg».proof.Proof.Region3
import proofs.«129533_j68959994904998_1_alg».proof.Proof.Region4
import Idealize.ShloMosaic.Lib.StableHlo.Run
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx Cert.GraphNet
open Idealize.ShloMosaic.StableHlo Idealize.SL.Sem

/-- The edge sources: row 0 of the edge array. -/
def srcOf (e : (⟨S2x640000, .i32⟩ : BufTy).Contents (Elt Ideal)) : (⟨S640000, .i32⟩ : BufTy).Contents (Elt Ideal) :=
  shapeCast _ (extractStridedSlice S1x640000 ![0, 0] e slices_S2x640000_S1x640000_0_0) shapeCasts_S1x640000_S640000

/-- The edge destinations: row 1 of the edge array. -/
def dstOf (e : (⟨S2x640000, .i32⟩ : BufTy).Contents (Elt Ideal)) : (⟨S640000, .i32⟩ : BufTy).Contents (Elt Ideal) :=
  shapeCast _ (extractStridedSlice S1x640000 ![1, 0] e slices_S2x640000_S1x640000_1_0) shapeCasts_S1x640000_S640000

/-- The neighbour sums of features h over edges with sources s and destinations d: the rows of h gathered at the
    sources (a negative source wrapped by 40000), scatter-added into the zero array at the destinations. Opaque here. -/
def aggSD (s d : (⟨S640000, .i32⟩ : BufTy).Contents (Elt Ideal)) (h : (⟨S40000x128, .f32⟩ : BufTy).Contents (Elt Ideal)) :
    (⟨S40000x128, .f32⟩ : BufTy).Contents (Elt Ideal) :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 d)
    (Host.gather gather_S40000x128_S640000x1_S640000x128_1_0_n_n_0_1_1128 h
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 40000#32))) s)))

/-- The neighbour sums over the edges of the edge array e. -/
def aggK (e : (⟨S2x640000, .i32⟩ : BufTy).Contents (Elt Ideal)) (h : (⟨S40000x128, .f32⟩ : BufTy).Contents (Elt Ideal)) :
    (⟨S40000x128, .f32⟩ : BufTy).Contents (Elt Ideal) :=
  aggSD (srcOf e) (dstOf e) h

/-- A host reshape of a vector to an array of one row is the vector laid out as a row. -/
theorem reshape_row {w : ℕ} (b : (⟨1, ![w]⟩ : Shape).Idx → EReal) (h : (⟨1, ![w]⟩ : Shape).ShapeCasts ⟨2, ![1, w]⟩) :
    shapeCast ⟨2, ![1, w]⟩ b h = rowOf b := by
  funext j
  refine (shapeCast_addUnit_apply ![w] b h j).trans ?_
  show b (fun a => j a.succ) = b (ix1 (j 1 : Fin w))
  refine congrArg b (funext fun a => ?_)
  match a with
  | ⟨0, _⟩ => rfl

variable (m : (ℓ : Loc nD τ sig) → Buf (Elt Ideal) ℓ) (ρ : Dev nD → PrngReg)

/-- The five layers' outputs, from the launch memory of core c. -/
def L1 (c : Dev nD) : (⟨2, ![40000, 128]⟩ : Shape).Idx → EReal :=
  conv true (aggK (m ((c : Thread nD τ).loc main_arg1)) (m ((c : Thread nD τ).loc main_arg0))) (m ((c : Thread nD τ).loc main_arg0)) (m ((c : Thread nD τ).loc main_arg2)) (m ((c : Thread nD τ).loc main_arg3)) (rowOf (m ((c : Thread nD τ).loc main_arg4)))
def L2 (c : Dev nD) : (⟨2, ![40000, 128]⟩ : Shape).Idx → EReal :=
  conv true (aggK (m ((c : Thread nD τ).loc main_arg1)) (L1 m c)) (L1 m c) (m ((c : Thread nD τ).loc main_arg5)) (m ((c : Thread nD τ).loc main_arg6)) (rowOf (m ((c : Thread nD τ).loc main_arg7)))
def L3 (c : Dev nD) : (⟨2, ![40000, 128]⟩ : Shape).Idx → EReal :=
  conv false (aggK (m ((c : Thread nD τ).loc main_arg1)) (L2 m c)) (L2 m c) (m ((c : Thread nD τ).loc main_arg8)) (m ((c : Thread nD τ).loc main_arg9)) (rowOf (m ((c : Thread nD τ).loc main_arg10)))
def L4 (c : Dev nD) : (⟨2, ![40000, 64]⟩ : Shape).Idx → EReal :=
  fc true (L3 m c) (m ((c : Thread nD τ).loc main_arg11)) (rowOf (m ((c : Thread nD τ).loc main_arg12)))
def L5 (c : Dev nD) : (⟨2, ![40000, 1]⟩ : Shape).Idx → EReal :=
  fc false (L4 m c) (m ((c : Thread nD τ).loc main_arg13)) (rowOf (m ((c : Thread nD τ).loc main_arg14)))

/-! ## Buffers that nothing writes: an argument keeps its launch contents up to the boundary where it is used -/
theorem at1_main_arg0 (c : Dev nD) : W1 m ρ c (Proc.devRef .tc main_arg0) = m ((c : Thread nD τ).loc main_arg0) := by
  show StableHlo.after hostOps0 (W0 m ρ c) (Proc.devRef .tc main_arg0) = _
  after_results
theorem at1_main_arg2 (c : Dev nD) : W1 m ρ c (Proc.devRef .tc main_arg2) = m ((c : Thread nD τ).loc main_arg2) := by
  show StableHlo.after hostOps0 (W0 m ρ c) (Proc.devRef .tc main_arg2) = _
  after_results
theorem at1_main_arg3 (c : Dev nD) : W1 m ρ c (Proc.devRef .tc main_arg3) = m ((c : Thread nD τ).loc main_arg3) := by
  show StableHlo.after hostOps0 (W0 m ρ c) (Proc.devRef .tc main_arg3) = _
  after_results
theorem at1_main_arg5 (c : Dev nD) : W1 m ρ c (Proc.devRef .tc main_arg5) = m ((c : Thread nD τ).loc main_arg5) := by
  show StableHlo.after hostOps0 (W0 m ρ c) (Proc.devRef .tc main_arg5) = _
  after_results
theorem at2_main_arg5 (c : Dev nD) : W2 m ρ c (Proc.devRef .tc main_arg5) = m ((c : Thread nD τ).loc main_arg5) :=
  (W2_of_ne m ρ c main_arg5 (by decide)).trans (at1_main_arg5 m ρ c)
theorem at3_main_arg5 (c : Dev nD) : W3 m ρ c (Proc.devRef .tc main_arg5) = m ((c : Thread nD τ).loc main_arg5) := by
  show StableHlo.after hostOps1 (W2 m ρ c) (Proc.devRef .tc main_arg5) = _
  after_results
  exact at2_main_arg5 m ρ c
theorem at1_main_arg6 (c : Dev nD) : W1 m ρ c (Proc.devRef .tc main_arg6) = m ((c : Thread nD τ).loc main_arg6) := by
  show StableHlo.after hostOps0 (W0 m ρ c) (Proc.devRef .tc main_arg6) = _
  after_results
theorem at2_main_arg6 (c : Dev nD) : W2 m ρ c (Proc.devRef .tc main_arg6) = m ((c : Thread nD τ).loc main_arg6) :=
  (W2_of_ne m ρ c main_arg6 (by decide)).trans (at1_main_arg6 m ρ c)
theorem at3_main_arg6 (c : Dev nD) : W3 m ρ c (Proc.devRef .tc main_arg6) = m ((c : Thread nD τ).loc main_arg6) := by
  show StableHlo.after hostOps1 (W2 m ρ c) (Proc.devRef .tc main_arg6) = _
  after_results
  exact at2_main_arg6 m ρ c
theorem at1_main_arg7 (c : Dev nD) : W1 m ρ c (Proc.devRef .tc main_arg7) = m ((c : Thread nD τ).loc main_arg7) := by
  show StableHlo.after hostOps0 (W0 m ρ c) (Proc.devRef .tc main_arg7) = _
  after_results
theorem at2_main_arg7 (c : Dev nD) : W2 m ρ c (Proc.devRef .tc main_arg7) = m ((c : Thread nD τ).loc main_arg7) :=
  (W2_of_ne m ρ c main_arg7 (by decide)).trans (at1_main_arg7 m ρ c)
theorem at1_main_arg8 (c : Dev nD) : W1 m ρ c (Proc.devRef .tc main_arg8) = m ((c : Thread nD τ).loc main_arg8) := by
  show StableHlo.after hostOps0 (W0 m ρ c) (Proc.devRef .tc main_arg8) = _
  after_results
theorem at2_main_arg8 (c : Dev nD) : W2 m ρ c (Proc.devRef .tc main_arg8) = m ((c : Thread nD τ).loc main_arg8) :=
  (W2_of_ne m ρ c main_arg8 (by decide)).trans (at1_main_arg8 m ρ c)
theorem at3_main_arg8 (c : Dev nD) : W3 m ρ c (Proc.devRef .tc main_arg8) = m ((c : Thread nD τ).loc main_arg8) := by
  show StableHlo.after hostOps1 (W2 m ρ c) (Proc.devRef .tc main_arg8) = _
  after_results
  exact at2_main_arg8 m ρ c
theorem at4_main_arg8 (c : Dev nD) : W4 m ρ c (Proc.devRef .tc main_arg8) = m ((c : Thread nD τ).loc main_arg8) :=
  (W4_of_ne m ρ c main_arg8 (by decide)).trans (at3_main_arg8 m ρ c)
theorem at5_main_arg8 (c : Dev nD) : W5 m ρ c (Proc.devRef .tc main_arg8) = m ((c : Thread nD τ).loc main_arg8) := by
  show StableHlo.after hostOps2 (W4 m ρ c) (Proc.devRef .tc main_arg8) = _
  after_results
  exact at4_main_arg8 m ρ c
theorem at1_main_arg9 (c : Dev nD) : W1 m ρ c (Proc.devRef .tc main_arg9) = m ((c : Thread nD τ).loc main_arg9) := by
  show StableHlo.after hostOps0 (W0 m ρ c) (Proc.devRef .tc main_arg9) = _
  after_results
theorem at2_main_arg9 (c : Dev nD) : W2 m ρ c (Proc.devRef .tc main_arg9) = m ((c : Thread nD τ).loc main_arg9) :=
  (W2_of_ne m ρ c main_arg9 (by decide)).trans (at1_main_arg9 m ρ c)
theorem at3_main_arg9 (c : Dev nD) : W3 m ρ c (Proc.devRef .tc main_arg9) = m ((c : Thread nD τ).loc main_arg9) := by
  show StableHlo.after hostOps1 (W2 m ρ c) (Proc.devRef .tc main_arg9) = _
  after_results
  exact at2_main_arg9 m ρ c
theorem at4_main_arg9 (c : Dev nD) : W4 m ρ c (Proc.devRef .tc main_arg9) = m ((c : Thread nD τ).loc main_arg9) :=
  (W4_of_ne m ρ c main_arg9 (by decide)).trans (at3_main_arg9 m ρ c)
theorem at5_main_arg9 (c : Dev nD) : W5 m ρ c (Proc.devRef .tc main_arg9) = m ((c : Thread nD τ).loc main_arg9) := by
  show StableHlo.after hostOps2 (W4 m ρ c) (Proc.devRef .tc main_arg9) = _
  after_results
  exact at4_main_arg9 m ρ c
theorem at1_main_arg10 (c : Dev nD) : W1 m ρ c (Proc.devRef .tc main_arg10) = m ((c : Thread nD τ).loc main_arg10) := by
  show StableHlo.after hostOps0 (W0 m ρ c) (Proc.devRef .tc main_arg10) = _
  after_results
theorem at2_main_arg10 (c : Dev nD) : W2 m ρ c (Proc.devRef .tc main_arg10) = m ((c : Thread nD τ).loc main_arg10) :=
  (W2_of_ne m ρ c main_arg10 (by decide)).trans (at1_main_arg10 m ρ c)
theorem at3_main_arg10 (c : Dev nD) : W3 m ρ c (Proc.devRef .tc main_arg10) = m ((c : Thread nD τ).loc main_arg10) := by
  show StableHlo.after hostOps1 (W2 m ρ c) (Proc.devRef .tc main_arg10) = _
  after_results
  exact at2_main_arg10 m ρ c
theorem at4_main_arg10 (c : Dev nD) : W4 m ρ c (Proc.devRef .tc main_arg10) = m ((c : Thread nD τ).loc main_arg10) :=
  (W4_of_ne m ρ c main_arg10 (by decide)).trans (at3_main_arg10 m ρ c)
theorem at1_main_arg11 (c : Dev nD) : W1 m ρ c (Proc.devRef .tc main_arg11) = m ((c : Thread nD τ).loc main_arg11) := by
  show StableHlo.after hostOps0 (W0 m ρ c) (Proc.devRef .tc main_arg11) = _
  after_results
theorem at2_main_arg11 (c : Dev nD) : W2 m ρ c (Proc.devRef .tc main_arg11) = m ((c : Thread nD τ).loc main_arg11) :=
  (W2_of_ne m ρ c main_arg11 (by decide)).trans (at1_main_arg11 m ρ c)
theorem at3_main_arg11 (c : Dev nD) : W3 m ρ c (Proc.devRef .tc main_arg11) = m ((c : Thread nD τ).loc main_arg11) := by
  show StableHlo.after hostOps1 (W2 m ρ c) (Proc.devRef .tc main_arg11) = _
  after_results
  exact at2_main_arg11 m ρ c
theorem at4_main_arg11 (c : Dev nD) : W4 m ρ c (Proc.devRef .tc main_arg11) = m ((c : Thread nD τ).loc main_arg11) :=
  (W4_of_ne m ρ c main_arg11 (by decide)).trans (at3_main_arg11 m ρ c)
theorem at5_main_arg11 (c : Dev nD) : W5 m ρ c (Proc.devRef .tc main_arg11) = m ((c : Thread nD τ).loc main_arg11) := by
  show StableHlo.after hostOps2 (W4 m ρ c) (Proc.devRef .tc main_arg11) = _
  after_results
  exact at4_main_arg11 m ρ c
theorem at6_main_arg11 (c : Dev nD) : W6 m ρ c (Proc.devRef .tc main_arg11) = m ((c : Thread nD τ).loc main_arg11) :=
  (W6_of_ne m ρ c main_arg11 (by decide)).trans (at5_main_arg11 m ρ c)
theorem at7_main_arg11 (c : Dev nD) : W7 m ρ c (Proc.devRef .tc main_arg11) = m ((c : Thread nD τ).loc main_arg11) := by
  show StableHlo.after hostOps3 (W6 m ρ c) (Proc.devRef .tc main_arg11) = _
  after_results
  exact at6_main_arg11 m ρ c
theorem at1_main_arg12 (c : Dev nD) : W1 m ρ c (Proc.devRef .tc main_arg12) = m ((c : Thread nD τ).loc main_arg12) := by
  show StableHlo.after hostOps0 (W0 m ρ c) (Proc.devRef .tc main_arg12) = _
  after_results
theorem at2_main_arg12 (c : Dev nD) : W2 m ρ c (Proc.devRef .tc main_arg12) = m ((c : Thread nD τ).loc main_arg12) :=
  (W2_of_ne m ρ c main_arg12 (by decide)).trans (at1_main_arg12 m ρ c)
theorem at3_main_arg12 (c : Dev nD) : W3 m ρ c (Proc.devRef .tc main_arg12) = m ((c : Thread nD τ).loc main_arg12) := by
  show StableHlo.after hostOps1 (W2 m ρ c) (Proc.devRef .tc main_arg12) = _
  after_results
  exact at2_main_arg12 m ρ c
theorem at4_main_arg12 (c : Dev nD) : W4 m ρ c (Proc.devRef .tc main_arg12) = m ((c : Thread nD τ).loc main_arg12) :=
  (W4_of_ne m ρ c main_arg12 (by decide)).trans (at3_main_arg12 m ρ c)
theorem at5_main_arg12 (c : Dev nD) : W5 m ρ c (Proc.devRef .tc main_arg12) = m ((c : Thread nD τ).loc main_arg12) := by
  show StableHlo.after hostOps2 (W4 m ρ c) (Proc.devRef .tc main_arg12) = _
  after_results
  exact at4_main_arg12 m ρ c
theorem at6_main_arg12 (c : Dev nD) : W6 m ρ c (Proc.devRef .tc main_arg12) = m ((c : Thread nD τ).loc main_arg12) :=
  (W6_of_ne m ρ c main_arg12 (by decide)).trans (at5_main_arg12 m ρ c)
theorem at1_main_arg13 (c : Dev nD) : W1 m ρ c (Proc.devRef .tc main_arg13) = m ((c : Thread nD τ).loc main_arg13) := by
  show StableHlo.after hostOps0 (W0 m ρ c) (Proc.devRef .tc main_arg13) = _
  after_results
theorem at2_main_arg13 (c : Dev nD) : W2 m ρ c (Proc.devRef .tc main_arg13) = m ((c : Thread nD τ).loc main_arg13) :=
  (W2_of_ne m ρ c main_arg13 (by decide)).trans (at1_main_arg13 m ρ c)
theorem at3_main_arg13 (c : Dev nD) : W3 m ρ c (Proc.devRef .tc main_arg13) = m ((c : Thread nD τ).loc main_arg13) := by
  show StableHlo.after hostOps1 (W2 m ρ c) (Proc.devRef .tc main_arg13) = _
  after_results
  exact at2_main_arg13 m ρ c
theorem at4_main_arg13 (c : Dev nD) : W4 m ρ c (Proc.devRef .tc main_arg13) = m ((c : Thread nD τ).loc main_arg13) :=
  (W4_of_ne m ρ c main_arg13 (by decide)).trans (at3_main_arg13 m ρ c)
theorem at5_main_arg13 (c : Dev nD) : W5 m ρ c (Proc.devRef .tc main_arg13) = m ((c : Thread nD τ).loc main_arg13) := by
  show StableHlo.after hostOps2 (W4 m ρ c) (Proc.devRef .tc main_arg13) = _
  after_results
  exact at4_main_arg13 m ρ c
theorem at6_main_arg13 (c : Dev nD) : W6 m ρ c (Proc.devRef .tc main_arg13) = m ((c : Thread nD τ).loc main_arg13) :=
  (W6_of_ne m ρ c main_arg13 (by decide)).trans (at5_main_arg13 m ρ c)
theorem at7_main_arg13 (c : Dev nD) : W7 m ρ c (Proc.devRef .tc main_arg13) = m ((c : Thread nD τ).loc main_arg13) := by
  show StableHlo.after hostOps3 (W6 m ρ c) (Proc.devRef .tc main_arg13) = _
  after_results
  exact at6_main_arg13 m ρ c
theorem at8_main_arg13 (c : Dev nD) : W8 m ρ c (Proc.devRef .tc main_arg13) = m ((c : Thread nD τ).loc main_arg13) :=
  (W8_of_ne m ρ c main_arg13 (by decide)).trans (at7_main_arg13 m ρ c)
theorem at9_main_arg13 (c : Dev nD) : W9 m ρ c (Proc.devRef .tc main_arg13) = m ((c : Thread nD τ).loc main_arg13) := by
  show StableHlo.after hostOps4 (W8 m ρ c) (Proc.devRef .tc main_arg13) = _
  after_results
  exact at8_main_arg13 m ρ c
theorem at1_main_arg14 (c : Dev nD) : W1 m ρ c (Proc.devRef .tc main_arg14) = m ((c : Thread nD τ).loc main_arg14) := by
  show StableHlo.after hostOps0 (W0 m ρ c) (Proc.devRef .tc main_arg14) = _
  after_results
theorem at2_main_arg14 (c : Dev nD) : W2 m ρ c (Proc.devRef .tc main_arg14) = m ((c : Thread nD τ).loc main_arg14) :=
  (W2_of_ne m ρ c main_arg14 (by decide)).trans (at1_main_arg14 m ρ c)
theorem at3_main_arg14 (c : Dev nD) : W3 m ρ c (Proc.devRef .tc main_arg14) = m ((c : Thread nD τ).loc main_arg14) := by
  show StableHlo.after hostOps1 (W2 m ρ c) (Proc.devRef .tc main_arg14) = _
  after_results
  exact at2_main_arg14 m ρ c
theorem at4_main_arg14 (c : Dev nD) : W4 m ρ c (Proc.devRef .tc main_arg14) = m ((c : Thread nD τ).loc main_arg14) :=
  (W4_of_ne m ρ c main_arg14 (by decide)).trans (at3_main_arg14 m ρ c)
theorem at5_main_arg14 (c : Dev nD) : W5 m ρ c (Proc.devRef .tc main_arg14) = m ((c : Thread nD τ).loc main_arg14) := by
  show StableHlo.after hostOps2 (W4 m ρ c) (Proc.devRef .tc main_arg14) = _
  after_results
  exact at4_main_arg14 m ρ c
theorem at6_main_arg14 (c : Dev nD) : W6 m ρ c (Proc.devRef .tc main_arg14) = m ((c : Thread nD τ).loc main_arg14) :=
  (W6_of_ne m ρ c main_arg14 (by decide)).trans (at5_main_arg14 m ρ c)
theorem at7_main_arg14 (c : Dev nD) : W7 m ρ c (Proc.devRef .tc main_arg14) = m ((c : Thread nD τ).loc main_arg14) := by
  show StableHlo.after hostOps3 (W6 m ρ c) (Proc.devRef .tc main_arg14) = _
  after_results
  exact at6_main_arg14 m ρ c
theorem at8_main_arg14 (c : Dev nD) : W8 m ρ c (Proc.devRef .tc main_arg14) = m ((c : Thread nD τ).loc main_arg14) :=
  (W8_of_ne m ρ c main_arg14 (by decide)).trans (at7_main_arg14 m ρ c)

/-! ## The edge sources and destinations: computed by the first stretch, kept afterwards -/
theorem at1_main_v1 (c : Dev nD) : W1 m ρ c (Proc.devRef .tc main_v1) = srcOf (m ((c : Thread nD τ).loc main_arg1)) := by
  show StableHlo.after hostOps0 (W0 m ρ c) (Proc.devRef .tc main_v1) = _
  after_results
  rfl
theorem at1_main_v3 (c : Dev nD) : W1 m ρ c (Proc.devRef .tc main_v3) = dstOf (m ((c : Thread nD τ).loc main_arg1)) := by
  show StableHlo.after hostOps0 (W0 m ρ c) (Proc.devRef .tc main_v3) = _
  after_results
  rfl
theorem at2_main_v1 (c : Dev nD) : W2 m ρ c (Proc.devRef .tc main_v1) = srcOf (m ((c : Thread nD τ).loc main_arg1)) :=
  (W2_of_ne m ρ c main_v1 (by decide)).trans (at1_main_v1 m ρ c)
theorem at3_main_v1 (c : Dev nD) : W3 m ρ c (Proc.devRef .tc main_v1) = srcOf (m ((c : Thread nD τ).loc main_arg1)) := by
  show StableHlo.after hostOps1 (W2 m ρ c) (Proc.devRef .tc main_v1) = _
  after_results
  exact at2_main_v1 m ρ c
theorem at4_main_v1 (c : Dev nD) : W4 m ρ c (Proc.devRef .tc main_v1) = srcOf (m ((c : Thread nD τ).loc main_arg1)) :=
  (W4_of_ne m ρ c main_v1 (by decide)).trans (at3_main_v1 m ρ c)
theorem at2_main_v3 (c : Dev nD) : W2 m ρ c (Proc.devRef .tc main_v3) = dstOf (m ((c : Thread nD τ).loc main_arg1)) :=
  (W2_of_ne m ρ c main_v3 (by decide)).trans (at1_main_v3 m ρ c)
theorem at3_main_v3 (c : Dev nD) : W3 m ρ c (Proc.devRef .tc main_v3) = dstOf (m ((c : Thread nD τ).loc main_arg1)) := by
  show StableHlo.after hostOps1 (W2 m ρ c) (Proc.devRef .tc main_v3) = _
  after_results
  exact at2_main_v3 m ρ c
theorem at4_main_v3 (c : Dev nD) : W4 m ρ c (Proc.devRef .tc main_v3) = dstOf (m ((c : Thread nD τ).loc main_arg1)) :=
  (W4_of_ne m ρ c main_v3 (by decide)).trans (at3_main_v3 m ρ c)

/-! ## Layer by layer -/

/-- Region 0 finds the neighbour sums of the node features, computed by the first stretch. -/
theorem at1_main_v13 (c : Dev nD) : W1 m ρ c (Proc.devRef .tc main_v13) = aggK (m ((c : Thread nD τ).loc main_arg1)) (m ((c : Thread nD τ).loc main_arg0)) := by
  show StableHlo.after hostOps0 (W0 m ρ c) (Proc.devRef .tc main_v13) = _
  after_results
  rfl
/-- and the first bias laid out as a row. -/
theorem at1_main_v14 (c : Dev nD) : W1 m ρ c (Proc.devRef .tc main_v14) = rowOf (m ((c : Thread nD τ).loc main_arg4)) := by
  show StableHlo.after hostOps0 (W0 m ρ c) (Proc.devRef .tc main_v14) = _
  after_results
  exact reshape_row _ _

/-- After region 0 its result buffer holds the first layer's output. -/
theorem out2 (c : Dev nD) : W2 m ρ c (Proc.devRef .tc main_v15) = L1 m c := by
  refine (W2_arr m ρ c 5).trans ((region0 (V1 m ρ) c).trans ?_)
  have h0 : V1 m ρ c main_v13 = aggK (m ((c : Thread nD τ).loc main_arg1)) (m ((c : Thread nD τ).loc main_arg0)) := at1_main_v13 m ρ c
  have h1 : V1 m ρ c main_arg0 = m ((c : Thread nD τ).loc main_arg0) := at1_main_arg0 m ρ c
  have h2 : V1 m ρ c main_arg2 = m ((c : Thread nD τ).loc main_arg2) := at1_main_arg2 m ρ c
  have h3 : V1 m ρ c main_arg3 = m ((c : Thread nD τ).loc main_arg3) := at1_main_arg3 m ρ c
  have h4 : V1 m ρ c main_v14 = rowOf (m ((c : Thread nD τ).loc main_arg4)) := at1_main_v14 m ρ c
  rw [h0, h1, h2, h3, h4]
  rfl

/-- The stretch before region 1 keeps the previous layer's output, -/
theorem at3_main_v15 (c : Dev nD) : W3 m ρ c (Proc.devRef .tc main_v15) = L1 m c := by
  show StableHlo.after hostOps1 (W2 m ρ c) (Proc.devRef .tc main_v15) = _
  after_results
  exact out2 m ρ c
/-- computes its neighbour sums, -/
theorem at3_main_v25 (c : Dev nD) : W3 m ρ c (Proc.devRef .tc main_v25) = aggK (m ((c : Thread nD τ).loc main_arg1)) (L1 m c) := by
  show StableHlo.after hostOps1 (W2 m ρ c) (Proc.devRef .tc main_v25) = _
  after_results
  rw [at2_main_v1 m ρ c, at2_main_v3 m ρ c, out2 m ρ c]
  rfl
/-- and lays the layer's bias out as a row. -/
theorem at3_main_v26 (c : Dev nD) : W3 m ρ c (Proc.devRef .tc main_v26) = rowOf (m ((c : Thread nD τ).loc main_arg7)) := by
  show StableHlo.after hostOps1 (W2 m ρ c) (Proc.devRef .tc main_v26) = _
  after_results
  rw [at2_main_arg7 m ρ c]
  exact reshape_row _ _

/-- After region 1 its result buffer holds the layer's output. -/
theorem out4 (c : Dev nD) : W4 m ρ c (Proc.devRef .tc main_v27) = L2 m c := by
  refine (W4_arr m ρ c 5).trans ((region1 (V3 m ρ) c).trans ?_)
  have h0 : V3 m ρ c main_v25 = aggK (m ((c : Thread nD τ).loc main_arg1)) (L1 m c) := at3_main_v25 m ρ c
  have h1 : V3 m ρ c main_v15 = L1 m c := at3_main_v15 m ρ c
  have h2 : V3 m ρ c main_arg5 = m ((c : Thread nD τ).loc main_arg5) := at3_main_arg5 m ρ c
  have h3 : V3 m ρ c main_arg6 = m ((c : Thread nD τ).loc main_arg6) := at3_main_arg6 m ρ c
  have h4 : V3 m ρ c main_v26 = rowOf (m ((c : Thread nD τ).loc main_arg7)) := at3_main_v26 m ρ c
  rw [h0, h1, h2, h3, h4]
  rfl

/-- The stretch before region 2 keeps the previous layer's output, -/
theorem at5_main_v27 (c : Dev nD) : W5 m ρ c (Proc.devRef .tc main_v27) = L2 m c := by
  show StableHlo.after hostOps2 (W4 m ρ c) (Proc.devRef .tc main_v27) = _
  after_results
  exact out4 m ρ c
/-- computes its neighbour sums, -/
theorem at5_main_v37 (c : Dev nD) : W5 m ρ c (Proc.devRef .tc main_v37) = aggK (m ((c : Thread nD τ).loc main_arg1)) (L2 m c) := by
  show StableHlo.after hostOps2 (W4 m ρ c) (Proc.devRef .tc main_v37) = _
  after_results
  rw [at4_main_v1 m ρ c, at4_main_v3 m ρ c, out4 m ρ c]
  rfl
/-- and lays the layer's bias out as a row. -/
theorem at5_main_v38 (c : Dev nD) : W5 m ρ c (Proc.devRef .tc main_v38) = rowOf (m ((c : Thread nD τ).loc main_arg10)) := by
  show StableHlo.after hostOps2 (W4 m ρ c) (Proc.devRef .tc main_v38) = _
  after_results
  rw [at4_main_arg10 m ρ c]
  exact reshape_row _ _

/-- After region 2 its result buffer holds the layer's output. -/
theorem out6 (c : Dev nD) : W6 m ρ c (Proc.devRef .tc main_v39) = L3 m c := by
  refine (W6_arr m ρ c 5).trans ((region2 (V5 m ρ) c).trans ?_)
  have h0 : V5 m ρ c main_v37 = aggK (m ((c : Thread nD τ).loc main_arg1)) (L2 m c) := at5_main_v37 m ρ c
  have h1 : V5 m ρ c main_v27 = L2 m c := at5_main_v27 m ρ c
  have h2 : V5 m ρ c main_arg8 = m ((c : Thread nD τ).loc main_arg8) := at5_main_arg8 m ρ c
  have h3 : V5 m ρ c main_arg9 = m ((c : Thread nD τ).loc main_arg9) := at5_main_arg9 m ρ c
  have h4 : V5 m ρ c main_v38 = rowOf (m ((c : Thread nD τ).loc main_arg10)) := at5_main_v38 m ρ c
  rw [h0, h1, h2, h3, h4]
  rfl

/-- The stretch before region 3 keeps the previous layer's output -/
theorem at7_main_v39 (c : Dev nD) : W7 m ρ c (Proc.devRef .tc main_v39) = L3 m c := by
  show StableHlo.after hostOps3 (W6 m ρ c) (Proc.devRef .tc main_v39) = _
  after_results
  exact out6 m ρ c
/-- and lays the layer's bias out as a row. -/
theorem at7_main_v40 (c : Dev nD) : W7 m ρ c (Proc.devRef .tc main_v40) = rowOf (m ((c : Thread nD τ).loc main_arg12)) := by
  show StableHlo.after hostOps3 (W6 m ρ c) (Proc.devRef .tc main_v40) = _
  after_results
  rw [at6_main_arg12 m ρ c]
  exact reshape_row _ _

/-- After region 3 its result buffer holds the layer's output. -/
theorem out8 (c : Dev nD) : W8 m ρ c (Proc.devRef .tc main_v41) = L4 m c := by
  refine (W8_arr m ρ c 3).trans ((region3 (V7 m ρ) c).trans ?_)
  have h0 : V7 m ρ c main_v39 = L3 m c := at7_main_v39 m ρ c
  have h1 : V7 m ρ c main_arg11 = m ((c : Thread nD τ).loc main_arg11) := at7_main_arg11 m ρ c
  have h2 : V7 m ρ c main_v40 = rowOf (m ((c : Thread nD τ).loc main_arg12)) := at7_main_v40 m ρ c
  rw [h0, h1, h2]
  rfl

/-- The stretch before region 4 keeps the previous layer's output -/
theorem at9_main_v41 (c : Dev nD) : W9 m ρ c (Proc.devRef .tc main_v41) = L4 m c := by
  show StableHlo.after hostOps4 (W8 m ρ c) (Proc.devRef .tc main_v41) = _
  after_results
  exact out8 m ρ c
/-- and lays the layer's bias out as a row. -/
theorem at9_main_v42 (c : Dev nD) : W9 m ρ c (Proc.devRef .tc main_v42) = rowOf (m ((c : Thread nD τ).loc main_arg14)) := by
  show StableHlo.after hostOps4 (W8 m ρ c) (Proc.devRef .tc main_v42) = _
  after_results
  rw [at8_main_arg14 m ρ c]
  exact reshape_row _ _

/-- After region 4 its result buffer holds the layer's output. -/
theorem out10 (c : Dev nD) : W10 m ρ c (Proc.devRef .tc main_v43) = L5 m c := by
  refine (W10_arr m ρ c 3).trans ((region4 (V9 m ρ) c).trans ?_)
  have h0 : V9 m ρ c main_v41 = L4 m c := at9_main_v41 m ρ c
  have h1 : V9 m ρ c main_arg13 = m ((c : Thread nD τ).loc main_arg13) := at9_main_arg13 m ρ c
  have h2 : V9 m ρ c main_v42 = rowOf (m ((c : Thread nD τ).loc main_arg14)) := at9_main_v42 m ρ c
  rw [h0, h1, h2]
  rfl

/-- The last layer's output is the whole network of the argument arrays. -/
theorem L5_eq_net (c : Dev nD) : L5 m c = net (aggK (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := rfl

/-- THE RUN, READ: every weakly fair execution of the idealized kernel terminates, nothing faulting, with the result
    buffer at the network of the argument arrays and the argument arrays as launched. -/
theorem run : θ_run defs (onTc (τ := τ) (main (F := Ideal))) ⟨m, fun _ => 0, ρ⟩ (fun r => ∀ c : Dev nD,
      r.2.mem ((c.tc : Thread nD τ).loc main_v43) = net (aggK (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans ((out10 m ρ c).trans (L5_eq_net m c)), (h c).2⟩)
    (Cert.KernelIdeal.Gen.run_result (F := Ideal) m ρ)

end Cert.KernelIdeal.Layers

end
-- ==== Proof.LibBroadcastInDim.lean ====
/-
  A host `broadcast_in_dim` read at an explicit index, for the shapes a bias row and a kept row-reduction take:
  a vector laid out as a column or as a row, a column repeated along the columns, a row repeated along the rows, and a
  scalar repeated everywhere. Stated over any element type.
-/
import Idealize.ShloMosaic.Lib.Pipeline.Value
import Idealize.ShloMosaic.Lib.ValueIdx

namespace Idealize.ShloMosaic.ValueIdx

variable {α : Type}

/-- `[a]` laid out as the column `[a, 1]`: entry `(p, u)` is the vector's entry `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) (fun ax => match ax with
    | ⟨0, _⟩ => by
      show p.val = if a = 1 then 0 else p.val
      split
      · have := p.isLt; omega
      · rfl)

/-- `[b]` laid out as the row `[1, b]`: entry `(u, c)` is the vector's entry `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) :=
  broadcastInDim_apply _ h v (ix2 u c) (ix1 c) (fun ax => match ax with
    | ⟨0, _⟩ => by
      show c.val = if b = 1 then 0 else c.val
      split
      · have := c.isLt; omega
      · rfl)

/-- The column `[a, 1]` repeated to `[a, b]`: entry `(p, c)` is the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => rfl)

/-- The row `[1, b]` repeated to `[a, b]`: entry `(p, c)` is the row's entry in column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v (ix2 p c) (ix2 (0 : Fin 1) c) (fun ax => match ax with
    | ⟨0, _⟩ => rfl
    | ⟨1, _⟩ => by
      show c.val = if b = 1 then 0 else c.val
      split
      · have := c.isLt; omega
      · rfl)

/-- A scalar repeated to any shape: every entry is the scalar. -/
theorem broadcastInDim_scalar_apply {t : Shape} (v : (⟨0, ![]⟩ : Shape).Idx → α)
    (h : (⟨0, ![]⟩ : Shape).BroadcastsInDim t ![]) (i : t.Idx) :
    broadcastInDim t ![] h v i = v ix0 :=
  broadcastInDim_apply _ h v i ix0 (fun ax => ax.elim0)

end Idealize.ShloMosaic.ValueIdx
-- ==== Proof.RefValue.lean ====
/-
  The reference network, read at the ideal values, is the network of the specification.

  The reference's result is one nested term of host operations on the argument arrays. Each layer of it is written
  here once as a function of its inputs, in the reference's own spelling: a host product of the neighbour sums with
  their weights, plus the bias vector laid out as a row and repeated down the rows, plus a host product of the node
  features with theirs, and (in the rectified layers) the maximum with an array of zeros. At the ideal values a host
  product is the plain sum over the contracted axis, an addition is the addition of extended reals and a maximum is
  their maximum, so entry (p, q) of each layer is the specification's formula; the reference adds the bias before the
  second product and the specification after it, which is the same extended real. The neighbour-sum operator (a host
  gather of rows by the edge sources followed by a host scatter-add into the edge destinations) is kept as one opaque
  function of the edge array and the features.
-/
import proofs.«129533_j68959994904998_1_alg».proof.Proof.Gen.ReferenceIdeal.Read
import proofs.«129533_j68959994904998_1_alg».proof.Proof.Spec
import proofs.«129533_j68959994904998_1_alg».proof.Proof.LibMatmulSum
import proofs.«129533_j68959994904998_1_alg».proof.Proof.LibBroadcastInDim
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.GraphNet Cert.LibMatmulSum

/-- The [40000,128] x [128,128] product contracts the left operand's columns with the right operand's rows. -/
theorem plain_128x128 : Plain (n := 40000) (K := 128) (w := 128) dot_S40000x128_S128x128_S40000x128_1_0_0_1_n_n where
  rank := rfl
  size := rfl
  l0 := fun i q => by
    unfold DotDims.lhsIdx
    rw [dif_neg (show ¬(0 : Fin S40000x128.rank) ∈ dot_S40000x128_S128x128_S40000x128_1_0_0_1_n_n.lhsBatch by decide),
      dif_pos (show (0 : Fin S40000x128.rank) ∈ dot_S40000x128_S128x128_S40000x128_1_0_0_1_n_n.lhsNonContracting by decide)]
    rfl
  l1 := fun i q => dot_S40000x128_S128x128_S40000x128_1_0_0_1_n_n.lhsIdx_val_of_single rfl i q
  r0 := fun i q => dot_S40000x128_S128x128_S40000x128_1_0_0_1_n_n.rhsIdx_val_of_single rfl i q
  r1 := fun i q => by
    unfold DotDims.rhsIdx
    rw [dif_neg (show ¬(1 : Fin S128x128.rank) ∈ dot_S40000x128_S128x128_S40000x128_1_0_0_1_n_n.rhsBatch by decide),
      dif_pos (show (1 : Fin S128x128.rank) ∈ dot_S40000x128_S128x128_S40000x128_1_0_0_1_n_n.rhsNonContracting by decide)]
    rfl

/-- The [40000,128] x [128,64] product contracts the left operand's columns with the right operand's rows. -/
theorem plain_128x64 : Plain (n := 40000) (K := 128) (w := 64) dot_S40000x128_S128x64_S40000x64_1_0_0_1_n_n where
  rank := rfl
  size := rfl
  l0 := fun i q => by
    unfold DotDims.lhsIdx
    rw [dif_neg (show ¬(0 : Fin S40000x128.rank) ∈ dot_S40000x128_S128x64_S40000x64_1_0_0_1_n_n.lhsBatch by decide),
      dif_pos (show (0 : Fin S40000x128.rank) ∈ dot_S40000x128_S128x64_S40000x64_1_0_0_1_n_n.lhsNonContracting by decide)]
    rfl
  l1 := fun i q => dot_S40000x128_S128x64_S40000x64_1_0_0_1_n_n.lhsIdx_val_of_single rfl i q
  r0 := fun i q => dot_S40000x128_S128x64_S40000x64_1_0_0_1_n_n.rhsIdx_val_of_single rfl i q
  r1 := fun i q => by
    unfold DotDims.rhsIdx
    rw [dif_neg (show ¬(1 : Fin S128x64.rank) ∈ dot_S40000x128_S128x64_S40000x64_1_0_0_1_n_n.rhsBatch by decide),
      dif_pos (show (1 : Fin S128x64.rank) ∈ dot_S40000x128_S128x64_S40000x64_1_0_0_1_n_n.rhsNonContracting by decide)]
    rfl

/-- The [40000,64] x [64,1] product contracts the left operand's columns with the right operand's rows. -/
theorem plain_64x1 : Plain (n := 40000) (K := 64) (w := 1) dot_S40000x64_S64x1_S40000x1_1_0_0_1_n_n where
  rank := rfl
  size := rfl
  l0 := fun i q => by
    unfold DotDims.lhsIdx
    rw [dif_neg (show ¬(0 : Fin S40000x64.rank) ∈ dot_S40000x64_S64x1_S40000x1_1_0_0_1_n_n.lhsBatch by decide),
      dif_pos (show (0 : Fin S40000x64.rank) ∈ dot_S40000x64_S64x1_S40000x1_1_0_0_1_n_n.lhsNonContracting by decide)]
    rfl
  l1 := fun i q => dot_S40000x64_S64x1_S40000x1_1_0_0_1_n_n.lhsIdx_val_of_single rfl i q
  r0 := fun i q => dot_S40000x64_S64x1_S40000x1_1_0_0_1_n_n.rhsIdx_val_of_single rfl i q
  r1 := fun i q => by
    unfold DotDims.rhsIdx
    rw [dif_neg (show ¬(1 : Fin S64x1.rank) ∈ dot_S40000x64_S64x1_S40000x1_1_0_0_1_n_n.rhsBatch by decide),
      dif_pos (show (1 : Fin S64x1.rank) ∈ dot_S40000x64_S64x1_S40000x1_1_0_0_1_n_n.rhsNonContracting by decide)]
    rfl

/-- A host product at entry (p, q): the sum over the contracted axis. -/
theorem hostDot_at {n K w : ℕ} {d : DotDims ⟨2, ![n, K]⟩ ⟨2, ![K, w]⟩ ⟨2, ![n, w]⟩} (hd : Plain d)
    (l : FVec Ideal ⟨2, ![n, K]⟩ .f32) (r : FVec Ideal ⟨2, ![K, w]⟩ .f32) (p : Fin n) (q : Fin w) :
    Host.dotGeneral (F := Ideal) d none l r (ix2 p q) = denseAt l r p q := by
  simp only [Host.dotGeneral]
  rw [Ideal.dotGeneral_apply]
  exact sum_eq hd l r p q

/-- The edge sources as a vector: row 0 of the edge array. -/
def srcOf (e : (⟨S2x640000, .i32⟩ : BufTy).Contents (Elt Ideal)) : (⟨S640000, .i32⟩ : BufTy).Contents (Elt Ideal) :=
  shapeCast _ (extractStridedSlice S1x640000 ![0, 0] e slices_S2x640000_S1x640000_0_0) shapeCasts_S1x640000_S640000

/-- The neighbour sums of the features `h` along the edges `e`, as the reference spells them: the rows of `h` gathered
    by the edge sources (a negative source wrapped round by the number of nodes) and scatter-added, from zero, into
    the edge destinations (row 1 of the edge array). Never opened: both programs compute it by the same two host
    operations. -/
def agg (e : (⟨S2x640000, .i32⟩ : BufTy).Contents (Elt Ideal)) (h : (⟨S40000x128, .f32⟩ : BufTy).Contents (Elt Ideal)) :
    (⟨S40000x128, .f32⟩ : BufTy).Contents (Elt Ideal) :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0
      (shapeCast _ (extractStridedSlice S1x640000 ![1, 0] e slices_S2x640000_S1x640000_1_0) shapeCasts_S1x640000_S640000))
    (Host.gather gather_S40000x128_S640000x1_S640000x128_1_0_n_n_0_1_1128 h
      (broadcastInDim S640000x1 ![0] bcast_S640000_S640000x1_0
        (select (cmpi .slt (srcOf e) (broadcastInDim S640000 ![] bcast_S_S640000 (constantI S_ 32 0#32)))
          (addi (srcOf e) (broadcastInDim S640000 ![] bcast_S_S640000 (constantI S_ 32 40000#32)))
          (srcOf e))))

/-- A graph-convolution layer before rectification, in the reference's spelling: the bias is added before the
    second product. -/
def refConvPre (a h : (⟨S40000x128, .f32⟩ : BufTy).Contents (Elt Ideal))
    (wrel wroot : (⟨S128x128, .f32⟩ : BufTy).Contents (Elt Ideal)) (b : (⟨S128, .f32⟩ : BufTy).Contents (Elt Ideal)) :
    (⟨S40000x128, .f32⟩ : BufTy).Contents (Elt Ideal) :=
  addf (F := Ideal)
    (addf (F := Ideal) (Host.dotGeneral (F := Ideal) (φ₁ := .f32) (φ₂ := .f32) dot_S40000x128_S128x128_S40000x128_1_0_0_1_n_n none a wrel)
      (broadcastInDim S40000x128 ![0, 1] bcast_S1x128_S40000x128_0_1 (broadcastInDim S1x128 ![1] bcast_S128_S1x128_1 b)))
    (Host.dotGeneral (F := Ideal) (φ₁ := .f32) (φ₂ := .f32) dot_S40000x128_S128x128_S40000x128_1_0_0_1_n_n none h wroot)

/-- A rectified graph-convolution layer in the reference's spelling: the maximum with an array of zeros. -/
def refConvRelu (a h : (⟨S40000x128, .f32⟩ : BufTy).Contents (Elt Ideal))
    (wrel wroot : (⟨S128x128, .f32⟩ : BufTy).Contents (Elt Ideal)) (b : (⟨S128, .f32⟩ : BufTy).Contents (Elt Ideal)) :
    (⟨S40000x128, .f32⟩ : BufTy).Contents (Elt Ideal) :=
  maximumf (F := Ideal) (refConvPre a h wrel wroot b)
    (broadcastInDim S40000x128 ![] bcast_S_S40000x128 (constant (F := Ideal) S_ .f32 0x00000000#32))

/-- The first fully connected layer (width 128 to 64, rectified) in the reference's spelling. -/
def refFc0 (h : (⟨S40000x128, .f32⟩ : BufTy).Contents (Elt Ideal)) (W : (⟨S128x64, .f32⟩ : BufTy).Contents (Elt Ideal))
    (b : (⟨S64, .f32⟩ : BufTy).Contents (Elt Ideal)) : (⟨S40000x64, .f32⟩ : BufTy).Contents (Elt Ideal) :=
  maximumf (F := Ideal)
    (addf (F := Ideal) (Host.dotGeneral (F := Ideal) (φ₁ := .f32) (φ₂ := .f32) dot_S40000x128_S128x64_S40000x64_1_0_0_1_n_n none h W)
      (broadcastInDim S40000x64 ![0, 1] bcast_S1x64_S40000x64_0_1 (broadcastInDim S1x64 ![1] bcast_S64_S1x64_1 b)))
    (broadcastInDim S40000x64 ![] bcast_S_S40000x64 (constant (F := Ideal) S_ .f32 0x00000000#32))

/-- The last fully connected layer (width 64 to 1, not rectified) in the reference's spelling. -/
def refFc1 (h : (⟨S40000x64, .f32⟩ : BufTy).Contents (Elt Ideal)) (W : (⟨S64x1, .f32⟩ : BufTy).Contents (Elt Ideal))
    (b : (⟨S1, .f32⟩ : BufTy).Contents (Elt Ideal)) : (⟨S40000x1, .f32⟩ : BufTy).Contents (Elt Ideal) :=
  addf (F := Ideal) (Host.dotGeneral (F := Ideal) (φ₁ := .f32) (φ₂ := .f32) dot_S40000x64_S64x1_S40000x1_1_0_0_1_n_n none h W)
    (broadcastInDim S40000x1 ![0, 1] bcast_S1x1_S40000x1_0_1 (broadcastInDim S1x1 ![1] bcast_S1_S1x1_1 b))

/-- A bias vector laid out as a row and repeated down the rows, at entry (p, q): the vector's entry q. -/
theorem biasRows_at {a b : ℕ} (v : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = rowOf v (ix2 (0 : Fin 1) q) := by
  rw [broadcastInDim_1b_ab_apply, broadcastInDim_b_1b_apply]
  rfl

/-- An array of the word of +0.0 at any entry. -/
theorem zeros_at {t : Shape} (h : (⟨0, ![]⟩ : Shape).BroadcastsInDim t ![]) (i : t.Idx) :
    broadcastInDim t ![] h (constant (F := Ideal) ⟨0, ![]⟩ .f32 0x00000000#32) i = zero32 := by
  rw [broadcastInDim_scalar_apply]
  rfl

/-- Entry (p, q) of a convolution layer before rectification is the specification's. -/
theorem refConvPre_at (a h : (⟨S40000x128, .f32⟩ : BufTy).Contents (Elt Ideal))
    (wrel wroot : (⟨S128x128, .f32⟩ : BufTy).Contents (Elt Ideal)) (b : (⟨S128, .f32⟩ : BufTy).Contents (Elt Ideal))
    (p : Fin 40000) (q : Fin 128) :
    refConvPre a h wrel wroot b (ix2 p q) = convAt a h wrel wroot (rowOf b) p q := by
  unfold refConvPre
  simp only [addf_apply]
  rw [hostDot_at plain_128x128, hostDot_at plain_128x128, biasRows_at]
  exact convAt_comm a h wrel wroot (rowOf b) p q

/-- The third convolution layer (not rectified). -/
theorem refConvPre_eq (a h : (⟨S40000x128, .f32⟩ : BufTy).Contents (Elt Ideal))
    (wrel wroot : (⟨S128x128, .f32⟩ : BufTy).Contents (Elt Ideal)) (b : (⟨S128, .f32⟩ : BufTy).Contents (Elt Ideal)) :
    refConvPre a h wrel wroot b = conv false a h wrel wroot (rowOf b) := by
  funext i
  obtain ⟨p, q, rfl⟩ : ∃ (p : Fin 40000) (q : Fin 128), i = ix2 p q := ⟨i 0, i 1, eq_ix2 i⟩
  rw [refConvPre_at]
  rfl

/-- The first two convolution layers (rectified). -/
theorem refConvRelu_eq (a h : (⟨S40000x128, .f32⟩ : BufTy).Contents (Elt Ideal))
    (wrel wroot : (⟨S128x128, .f32⟩ : BufTy).Contents (Elt Ideal)) (b : (⟨S128, .f32⟩ : BufTy).Contents (Elt Ideal)) :
    refConvRelu a h wrel wroot b = conv true a h wrel wroot (rowOf b) := by
  funext i
  obtain ⟨p, q, rfl⟩ : ∃ (p : Fin 40000) (q : Fin 128), i = ix2 p q := ⟨i 0, i 1, eq_ix2 i⟩
  unfold refConvRelu
  rw [maximumf_apply, refConvPre_at, zeros_at]
  rfl

/-- The first fully connected layer. -/
theorem refFc0_eq (h : (⟨S40000x128, .f32⟩ : BufTy).Contents (Elt Ideal)) (W : (⟨S128x64, .f32⟩ : BufTy).Contents (Elt Ideal))
    (b : (⟨S64, .f32⟩ : BufTy).Contents (Elt Ideal)) : refFc0 h W b = fc true h W (rowOf b) := by
  funext i
  obtain ⟨p, q, rfl⟩ : ∃ (p : Fin 40000) (q : Fin 64), i = ix2 p q := ⟨i 0, i 1, eq_ix2 i⟩
  unfold refFc0
  rw [maximumf_apply, addf_apply, hostDot_at plain_128x64, biasRows_at, zeros_at]
  rfl

/-- The last fully connected layer. -/
theorem refFc1_eq (h : (⟨S40000x64, .f32⟩ : BufTy).Contents (Elt Ideal)) (W : (⟨S64x1, .f32⟩ : BufTy).Contents (Elt Ideal))
    (b : (⟨S1, .f32⟩ : BufTy).Contents (Elt Ideal)) : refFc1 h W b = fc false h W (rowOf b) := by
  funext i
  obtain ⟨p, q, rfl⟩ : ∃ (p : Fin 40000) (q : Fin 1), i = ix2 p q := ⟨i 0, i 1, eq_ix2 i⟩
  unfold refFc1
  rw [addf_apply, hostDot_at plain_64x1, biasRows_at]
  rfl

/-- The reference network as the nest of its layers, in the reference's spelling: each convolution layer reads the
    neighbour sums of its input beside the input itself. -/
def refNet (e : (⟨S2x640000, .i32⟩ : BufTy).Contents (Elt Ideal)) (x : (⟨S40000x128, .f32⟩ : BufTy).Contents (Elt Ideal))
    (wrel0 wroot0 : (⟨S128x128, .f32⟩ : BufTy).Contents (Elt Ideal)) (b0 : (⟨S128, .f32⟩ : BufTy).Contents (Elt Ideal))
    (wrel1 wroot1 : (⟨S128x128, .f32⟩ : BufTy).Contents (Elt Ideal)) (b1 : (⟨S128, .f32⟩ : BufTy).Contents (Elt Ideal))
    (wrel2 wroot2 : (⟨S128x128, .f32⟩ : BufTy).Contents (Elt Ideal)) (b2 : (⟨S128, .f32⟩ : BufTy).Contents (Elt Ideal))
    (wfc0 : (⟨S128x64, .f32⟩ : BufTy).Contents (Elt Ideal)) (bfc0 : (⟨S64, .f32⟩ : BufTy).Contents (Elt Ideal))
    (wfc1 : (⟨S64x1, .f32⟩ : BufTy).Contents (Elt Ideal)) (bfc1 : (⟨S1, .f32⟩ : BufTy).Contents (Elt Ideal)) : (⟨S40000x1, .f32⟩ : BufTy).Contents (Elt Ideal) :=
  refFc1
    (refFc0
      (refConvPre
        (agg e (refConvRelu (agg e (refConvRelu (agg e x) x wrel0 wroot0 b0)) (refConvRelu (agg e x) x wrel0 wroot0 b0) wrel1 wroot1 b1))
        (refConvRelu (agg e (refConvRelu (agg e x) x wrel0 wroot0 b0)) (refConvRelu (agg e x) x wrel0 wroot0 b0) wrel1 wroot1 b1)
        wrel2 wroot2 b2)
      wfc0 bfc0)
    wfc1 bfc1

/-- The nest of the reference's layers is the specification's network over the same neighbour sums. -/
theorem refNet_eq (e : (⟨S2x640000, .i32⟩ : BufTy).Contents (Elt Ideal)) (x : (⟨S40000x128, .f32⟩ : BufTy).Contents (Elt Ideal))
    (wrel0 wroot0 : (⟨S128x128, .f32⟩ : BufTy).Contents (Elt Ideal)) (b0 : (⟨S128, .f32⟩ : BufTy).Contents (Elt Ideal))
    (wrel1 wroot1 : (⟨S128x128, .f32⟩ : BufTy).Contents (Elt Ideal)) (b1 : (⟨S128, .f32⟩ : BufTy).Contents (Elt Ideal))
    (wrel2 wroot2 : (⟨S128x128, .f32⟩ : BufTy).Contents (Elt Ideal)) (b2 : (⟨S128, .f32⟩ : BufTy).Contents (Elt Ideal))
    (wfc0 : (⟨S128x64, .f32⟩ : BufTy).Contents (Elt Ideal)) (bfc0 : (⟨S64, .f32⟩ : BufTy).Contents (Elt Ideal))
    (wfc1 : (⟨S64x1, .f32⟩ : BufTy).Contents (Elt Ideal)) (bfc1 : (⟨S1, .f32⟩ : BufTy).Contents (Elt Ideal)) :
    refNet e x wrel0 wroot0 b0 wrel1 wroot1 b1 wrel2 wroot2 b2 wfc0 bfc0 wfc1 bfc1
      = net (agg e) x wrel0 wroot0 b0 wrel1 wroot1 b1 wrel2 wroot2 b2 wfc0 bfc0 wfc1 bfc1 := by
  unfold refNet net
  rw [refFc1_eq, refFc0_eq, refConvPre_eq, refConvRelu_eq, refConvRelu_eq]

set_option maxRecDepth 8192 in
/-- The reference's composed result term is that nest, by unfolding the layers. -/
theorem res_eq_refNet (m : (ℓ : Loc nD τ sig) → Buf (Elt Ideal) ℓ) (c : Dev nD) :
    Cert.ReferenceIdeal.Value.res_main_v62 (F := Ideal) m c
      = refNet (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.Value.res_main_v62
  rfl

/-- The reference's result, at the ideal values, is the specification's network on the argument arrays, with the
    neighbour sums taken along the edge array. -/
theorem result_eq (m : (ℓ : Loc nD τ sig) → Buf (Elt Ideal) ℓ) (c : Dev nD) :
    Cert.ReferenceIdeal.Value.res_main_v62 (F := Ideal) m c
      = Cert.GraphNet.net (agg (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (res_eq_refNet m c).trans (refNet_eq _ _ _ _ _ _ _ _ _ _ _ _ _ _ _)

end Cert.ReferenceIdeal.RefValue

end
-- ==== Proof.lean ====
/-
  A five-layer graph network on 40000 nodes, computed two ways, is one function of its arguments over the extended
  reals.

  Both programs build, for each of three graph-convolution layers, the neighbour sums of the current node features by
  the same host gather (rows at the edge sources) and scatter-add (into the edge destinations); the layer is then
  (neighbour sums) x Wrel + (features) x Wroot + bias, rectified in the first two layers, followed by a rectified
  fully connected layer to width 64 and a plain one to width 1. The kernel computes every layer in blocks of 5000
  rows on the matrix unit and adds the bias last; the reference computes whole-array products on the host and adds
  the bias between the two products. At the ideal values a narrowing to bf16 is the identity, a matrix-unit product
  into a zero accumulator and a host product are the same sum over the contracted axis, blocks of rows of a product
  are products of blocks of rows, and addition is commutative and associative: so both results are the network
  `Cert.GraphNet.net` of the argument arrays, over the same neighbour-sum operator. No finiteness of the inputs is
  used. The kernel's idealization rewrote nothing, so its preservation claim is trivial.
-/
import proofs.«129533_j68959994904998_1_alg».proof.Defs
import proofs.«129533_j68959994904998_1_alg».proof.Proof.Gen.Kernel
import proofs.«129533_j68959994904998_1_alg».proof.Proof.Gen.Kernel.Skeleton
import proofs.«129533_j68959994904998_1_alg».proof.Proof.Gen.Kernel.Launch
import proofs.«129533_j68959994904998_1_alg».proof.Proof.Gen.Kernel.Points
import proofs.«129533_j68959994904998_1_alg».proof.Proof.Gen.Kernel.Frame
import proofs.«129533_j68959994904998_1_alg».proof.Proof.Gen.KernelIdeal
import proofs.«129533_j68959994904998_1_alg».proof.Proof.Gen.KernelIdeal.Skeleton
import proofs.«129533_j68959994904998_1_alg».proof.Proof.Gen.KernelIdeal.Launch
import proofs.«129533_j68959994904998_1_alg».proof.Proof.Gen.KernelIdeal.Points
import proofs.«129533_j68959994904998_1_alg».proof.Proof.Gen.KernelIdeal.Frame
import proofs.«129533_j68959994904998_1_alg».proof.Proof.Gen.ReferenceIdeal
import proofs.«129533_j68959994904998_1_alg».proof.Proof.Gen.ReferenceIdeal.Run
import proofs.«129533_j68959994904998_1_alg».proof.Proof.Gen.ReferenceIdeal.Read
import proofs.«129533_j68959994904998_1_alg».proof.Proof.Gen.Pre_finite_inputs
import proofs.«129533_j68959994904998_1_alg».proof.Proof.KernelValue
import proofs.«129533_j68959994904998_1_alg».proof.Proof.RefValue
import Idealize.ShloMosaic.Adequacy
import Idealize.ShloMosaic.Init

noncomputable section

namespace Cert.Proof

open Idealize.ShloMosaic Idealize.ShloMosaic.TcCoe Idealize.SL.Sem

/-- The two programs' neighbour sums are one function: the same gather of rows at the edge sources and the same
    scatter-add into the edge destinations, spelt with records that agree field by field. -/
theorem agg_eq (e : (⟨Cert.KernelIdeal.S2x640000, .i32⟩ : BufTy).Contents (Elt Ideal)) :
    Cert.ReferenceIdeal.RefValue.agg e = Cert.KernelIdeal.Layers.aggK e := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the network of the argument arrays in
    their result buffer. -/
theorem algebraic : Cert.algebraic_KernelIdeal_ReferenceIdeal := by
  intro m ρ m' ρ' _ hagree
  refine ⟨_, Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.RefValue.result_eq m' c, a0, a1, a2, a3, a4, a5, a6, a7, a8, a9, a10, a11, a12, a13, a14, agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
